-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩

abbrev nBuf : Space → Nat
  | .hbm => 56
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S800000, .f32⟩
  | .hbm, ⟨12, _⟩ => ⟨S_, .f32⟩
  | .hbm, ⟨13, _⟩ => ⟨S50000, .f32⟩
  | .hbm, ⟨14, _⟩ => ⟨S800000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000, .f32⟩
  | .hbm, ⟨20, _⟩ => ⟨S50000x1, .f32⟩
  | .hbm, ⟨21, _⟩ => ⟨S50000x128, .bf16⟩
  | .hbm, ⟨22, _⟩ => ⟨S50000x128, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .bf16⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x128, .f32⟩
  | .hbm, ⟨38, _⟩ => ⟨S50000x128, .bf16⟩
  | .hbm, ⟨39, _⟩ => ⟨S50000x128, .bf16⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .bf16⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S1x128, .f32⟩
  | .hbm, ⟨55, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S2000x128, .bf16⟩
  | .local _ .vmem, ⟨12, _⟩ => ⟨S2000x128, .bf16⟩
  | .local _ .vmem, ⟨13, _⟩ => ⟨S2000x1, .f32⟩
  | .local _ .vmem, ⟨14, _⟩ => ⟨S2000x1, .f32⟩
  | .local _ .vmem, ⟨15, _⟩ => ⟨S1x128, .f32⟩
  | .local _ .vmem, ⟨16, _⟩ => ⟨S128x128, .f32⟩
  | .local _ .vmem, ⟨17, _⟩ => ⟨S2000x128, .bf16⟩
  | .local _ .vmem, ⟨18, _⟩ => ⟨S2000x128, .bf16⟩
  | .local _ .vmem, ⟨19, _⟩ => ⟨S2000x128, .bf16⟩
  | .local _ .vmem, ⟨20, _⟩ => ⟨S2000x128, .bf16⟩
  | .local _ .vmem, ⟨21, _⟩ => ⟨S2000x128, .f32⟩
  | .local _ .vmem, ⟨22, _⟩ => ⟨S2000x128, .f32⟩
  | .local _ .vmem, ⟨23, _⟩ => ⟨S2000x128, .bf16⟩
  | .local _ .vmem, ⟨24, _⟩ => ⟨S2000x128, .bf16⟩
  | .local _ .vmem, ⟨25, _⟩ => ⟨S2000x1, .f32⟩
  | .local _ .vmem, ⟨26, _⟩ => ⟨S2000x1, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .bf16 = 32 ∨ (Rect.block (s := S50000x128) S2000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .bf16 = 32 ∨ (Rect.block (s := S50000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .bf16 = 32 ∨ (Rect.block (s := S50000x128) S2000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S2000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S2000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v38) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 125
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000x128, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S800000, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S800000, .f32⟩
  | .hbm, ⟨70, _⟩ => ⟨S_, .f32⟩
  | .hbm, ⟨71, _⟩ => ⟨S50000, .f32⟩
  | .hbm, ⟨72, _⟩ => ⟨S800000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000, .f32⟩
  | .hbm, ⟨96, _⟩ => ⟨S800000, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .f32⟩
  | .hbm, ⟨106, _⟩ => ⟨S800000x1, .f32⟩
  | .hbm, ⟨107, _⟩ => ⟨S800000x128, .f32⟩
  | .hbm, ⟨108, _⟩ => ⟨S800000x128, .f32⟩
  | .hbm, ⟨109, _⟩ => ⟨S_, .f32⟩
  | .hbm, ⟨110, _⟩ => ⟨S50000x128, .f32⟩
  | .hbm, ⟨111, _⟩ => ⟨S800000x1, .i32⟩
  | .hbm, ⟨112, _⟩ => ⟨S50000x128, .f32⟩
  | .hbm, ⟨113, _⟩ => ⟨S50000, .f32⟩
  | .hbm, ⟨114, _⟩ => ⟨S50000x1, .f32⟩
  | .hbm, ⟨115, _⟩ => ⟨S50000x128, .f32⟩
  | .hbm, ⟨116, _⟩ => ⟨S50000x128, .f32⟩
  | .hbm, ⟨117, _⟩ => ⟨S50000x128, .f32⟩
  | .hbm, ⟨118, _⟩ => ⟨S1x128, .f32⟩
  | .hbm, ⟨119, _⟩ => ⟨S50000x128, .f32⟩
  | .hbm, ⟨120, _⟩ => ⟨S50000x128, .f32⟩
  | .hbm, ⟨121, _⟩ => ⟨S50000x128, .f32⟩
  | .hbm, ⟨122, _⟩ => ⟨S_, .f32⟩
  | .hbm, ⟨123, _⟩ => ⟨S50000x128, .f32⟩
  | .hbm, ⟨124, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_call1_cst : Ref sig .tc := ⟨.hbm, 122, rfl⟩
abbrev main_call1_v0 : Ref sig .tc := ⟨.hbm, 123, rfl⟩
abbrev main_v94 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run with every buffer named at the last boundary.

  The kernel's @main is six segments: three stretches of host operations, each followed by one pipelined region. The
  generated frame certificate folds the buffer contents through the segments (a stretch applies its operations; a
  region replaces its output arrays by what its write-backs leave) and ends at the contents `W6` after the third
  region. Its frame theorem keeps only the argument arrays of that final valuation. Here the same run keeps all of
  it: every weakly fair execution terminates, nothing faults, and every unscoped buffer ends at `W6`. The value of
  the result array is then a matter of reading `W6` back through the fold.
-/
import proofs.«171717_j25975962206483_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault, and in the final state every
    unscoped buffer of every core holds the contents the fold through the six segments ends at. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run keeping the result array and the six argument arrays. -/
theorem run_result : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)
    (run_boundary m ρ)

end Cert.KernelIdeal.Whole

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibColumnBroadcast.lean ====
/-
  One column broadcast over many: a general layout lemma, in the style of the library's row form. A `[a, 1]` array
  broadcast to `[a, b]` repeats its one column: the entry at `(p, c)` is the operand's entry at `(p, 0)`, whatever
  the column `c`. (What a row statistic kept with its unit axis — a row sum, a row maximum — needs when it meets a
  full tile.)
-/
import Idealize.ShloMosaic.Lib.Pipeline.Value
import Idealize.ShloMosaic.Lib.ValueIdx

namespace Cert.Layout

open Idealize.ShloMosaic Idealize.ShloMosaic.ValueIdx

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layout
-- ==== Proof.KernelBodies.lean ====
/-
  What each of the three kernel bodies stores, entry by entry, at the exact extended reals.

  Body 0 multiplies its 2000 rows of features by the 128 x 128 weights and stores the product, and the product with
  each row scaled by that row's node weight (a 2000 x 1 column). Body 1 first forms, per entry,
  `max (d * agg + h * (d * d) + b, 0)` from the aggregate block, the feature block, the weight column and the bias row,
  then multiplies that by the second weights and stores the product and its row-scaled copy. Body 2 stores
  `max (d * agg + h * (d * d) + b + x, 0)`. A change of float format is the identity at this instance.
-/
import proofs.«171717_j25975962206483_2_alg».proof.Proof.Gen.KernelIdeal.Skeleton
import proofs.«171717_j25975962206483_2_alg».proof.Proof.LibMatmulNN
import proofs.«171717_j25975962206483_2_alg».proof.Proof.LibColumnBroadcast
import Idealize.ShloMosaic.Lib.Pipeline.Value
import Idealize.ShloMosaic.Lib.ValueIdx
import Idealize.ShloMosaic.Lib.ValueLayout

noncomputable section

namespace Cert.KernelIdeal.Bodies

open Cert.KernelIdeal Cert.KernelIdeal.Gen
open Idealize.ShloMosaic Idealize.ShloMosaic.ValueIdx

/-- The float word of zero, as an extended real. -/
abbrev zeroF : EReal := Ideal.ofBits .f32 0x00000000#32

/-- One entry of a layer before the rectifier, from the entries it reads: the node weight `d`, the aggregate `a`, the
    feature `h` and the bias `b`. -/
abbrev mix (d a h b : EReal) : EReal := (d * a + h * (d * d)) + b

/-! ## Body 0 -/

/-- The stored product: row `p` of the feature block against column `q` of the weights. -/
theorem body0_product (x0 : Vec Ideal S2000x128 .f32) (x1 : Vec Ideal S128x128 .f32) (p : Fin 2000) (q : Fin 128) :
    k0_pay2 (F := Ideal) x0 x1 (ix2 p q) = ∑ e : Fin 128, x0 (ix2 p e) * x1 (ix2 e q) := by
  unfold k0_pay2 k0_pay1
  exact Cert.LibMatmulNN.matmul_zero_apply (M := 2000) (N := 128) (K := 128)
    dot_S2000x128_S128x128_S2000x128_1_0_0_1_n_n_wf none _ _ p q

/-- The stored scaled product: the same entry times row `p`'s node weight. -/
theorem body0_scaled (x0 : Vec Ideal S2000x128 .f32) (x1 : Vec Ideal S128x128 .f32) (x2 : Vec Ideal S2000x1 .f32)
    (p : Fin 2000) (q : Fin 128) :
    k0_pay3 (F := Ideal) x0 x1 x2 (ix2 p q) = (∑ e : Fin 128, x0 (ix2 p e) * x1 (ix2 e q)) * x2 (ix2 p (0 : Fin 1)) := by
  unfold k0_pay3
  simp only [shapeCast_self]
  show k0_pay1 (F := Ideal) x0 x1 (ix2 p q) * broadcastTo S2000x128 x2 broadcasts_S2000x1_S2000x128 (ix2 p q) = _
  rw [Cert.Layout.broadcastTo_a1_ab_apply]
  refine congrArg (· * x2 (ix2 p (0 : Fin 1))) ?_
  exact body0_product x0 x1 p q

/-! ## Body 1 -/

/-- The product body 1 forms: row `p` of the rectified layer-one output against column `q` of the second weights. -/
theorem body1_product (v0 : Vec Ideal S2000x1 .f32) (v2 : Vec Ideal S2000x128 .f32) (v6 : Vec Ideal S2000x128 .bf16)
    (v13 : Vec Ideal S1x128 .f32) (v20 : Vec Ideal S128x128 .f32) (p : Fin 2000) (q : Fin 128) :
    k1_pay2 (F := Ideal) v0 v2 v6 v13 v20 (ix2 p q)
      = ∑ e : Fin 128, max (mix (v0 (ix2 p (0 : Fin 1))) (v2 (ix2 p e)) (v6 (ix2 p e)) (v13 (ix2 (0 : Fin 1) e))) zeroF
          * v20 (ix2 e q) := by
  unfold k1_pay2 k1_pay1
  refine (Cert.LibMatmulNN.matmul_zero_apply (M := 2000) (N := 128) (K := 128)
    dot_S2000x128_S128x128_S2000x128_1_0_0_1_n_n_wf none _ _ p q).trans ?_
  refine Finset.sum_congr rfl fun e _ => ?_
  refine congrArg (· * v20 (ix2 e q)) ?_
  simp only [shapeCast_self, truncf_apply, maximumf_apply, addf_apply, mulf_apply, extf_apply, broadcast_apply,
    Cert.Layout.broadcastTo_a1_ab_apply, broadcastTo_1b_ab_apply]
  rfl

/-- The stored product of body 1. -/
theorem body1_stored (v0 : Vec Ideal S2000x1 .f32) (v2 : Vec Ideal S2000x128 .f32) (v6 : Vec Ideal S2000x128 .bf16)
    (v13 : Vec Ideal S1x128 .f32) (v20 : Vec Ideal S128x128 .f32) (p : Fin 2000) (q : Fin 128) :
    k1_pay3 (F := Ideal) v0 v2 v6 v13 v20 (ix2 p q)
      = ∑ e : Fin 128, max (mix (v0 (ix2 p (0 : Fin 1))) (v2 (ix2 p e)) (v6 (ix2 p e)) (v13 (ix2 (0 : Fin 1) e))) zeroF
          * v20 (ix2 e q) := by
  unfold k1_pay3
  exact body1_product v0 v2 v6 v13 v20 p q

/-- The stored scaled product of body 1. -/
theorem body1_scaled (v0 : Vec Ideal S2000x1 .f32) (v2 : Vec Ideal S2000x128 .f32) (v6 : Vec Ideal S2000x128 .bf16)
    (v13 : Vec Ideal S1x128 .f32) (v20 : Vec Ideal S128x128 .f32) (p : Fin 2000) (q : Fin 128) :
    k1_pay4 (F := Ideal) v0 v2 v6 v13 v20 (ix2 p q)
      = (∑ e : Fin 128, max (mix (v0 (ix2 p (0 : Fin 1))) (v2 (ix2 p e)) (v6 (ix2 p e)) (v13 (ix2 (0 : Fin 1) e))) zeroF
          * v20 (ix2 e q)) * v0 (ix2 p (0 : Fin 1)) := by
  unfold k1_pay4
  show k1_pay2 (F := Ideal) v0 v2 v6 v13 v20 (ix2 p q)
    * broadcastTo S2000x128 (k1_pay1 (F := Ideal) v0) broadcasts_S2000x1_S2000x128 (ix2 p q) = _
  rw [Cert.Layout.broadcastTo_a1_ab_apply]
  unfold k1_pay1
  simp only [shapeCast_self]
  refine congrArg (· * v0 (ix2 p (0 : Fin 1))) ?_
  exact body1_product v0 v2 v6 v13 v20 p q

/-! ## Body 2 -/

/-- The stored result of body 2. -/
theorem body2_stored (v0 : Vec Ideal S2000x1 .f32) (v2 : Vec Ideal S2000x128 .f32) (v6 : Vec Ideal S2000x128 .bf16)
    (v13 : Vec Ideal S1x128 .f32) (v17 : Vec Ideal S2000x128 .f32) (p : Fin 2000) (q : Fin 128) :
    k2_pay1 (F := Ideal) v0 v2 v6 v13 v17 (ix2 p q)
      = max (mix (v0 (ix2 p (0 : Fin 1))) (v2 (ix2 p q)) (v6 (ix2 p q)) (v13 (ix2 (0 : Fin 1) q)) + v17 (ix2 p q)) zeroF := by
  unfold k2_pay1
  simp only [shapeCast_self, truncf_apply, maximumf_apply, addf_apply, mulf_apply, extf_apply, broadcast_apply,
    Cert.Layout.broadcastTo_a1_ab_apply, broadcastTo_1b_ab_apply]
  rfl

end Cert.KernelIdeal.Bodies

end
-- ==== Proof.LibScaledSum.lean ====
/-
  Sums on the extended reals scaled by a nonnegative finite factor.

  The extended reals are not a semiring: `x * (y + z) = x * y + x * z` fails when `y` and `z` are infinities of
  opposite sign and `x` is negative or infinite. For `0 ≤ x < ⊤` it holds, and so such a factor moves across any
  finite sum. This is the one law a graph convolution needs when the normalisation by the target node's degree is
  applied once per node, after the sum over the incoming edges, instead of once per edge.
-/
import Mathlib.Data.EReal.Inv
import Mathlib.Algebra.BigOperators.Group.Finset.Basic

open scoped BigOperators

namespace EdgeSum

/-- A nonnegative finite factor distributes over a finite sum of extended reals. -/
theorem mul_sum_of_nonneg_of_ne_top {υ : Type*} (S : Finset υ) (f : υ → EReal) {x : EReal} (h0 : 0 ≤ x) (ht : x ≠ ⊤) :
    x * ∑ u ∈ S, f u = ∑ u ∈ S, x * f u := by
  classical
  induction S using Finset.induction_on with
  | empty => simp
  | insert a s ha ih => rw [Finset.sum_insert ha, Finset.sum_insert ha, EReal.left_distrib_of_nonneg_of_ne_top h0 ht, ih]

/-- THE EDGE LAW. Over a set `S` of edges, let edge `u` carry the message `a u`, the weight `b u` of its source and the
    weight `c u` of its target. If every edge of `S` has the same target weight `x` (they all enter one node) and `x` is
    nonnegative and finite, then scaling the sum of the source-weighted messages by `x` once is the sum of the
    messages each weighted by `b u * c u`. Both sums start from the same `z` with `x * z = z` (zero). -/
theorem scale_once_eq_scale_each {υ : Type*} (S : Finset υ) (a b c : υ → EReal) {x z : EReal} (h0 : 0 ≤ x) (ht : x ≠ ⊤)
    (hz : z = 0) (hc : ∀ u ∈ S, c u = x) :
    x * (z + ∑ u ∈ S, a u * b u) = z + ∑ u ∈ S, a u * (b u * c u) := by
  subst hz
  rw [zero_add, zero_add, mul_sum_of_nonneg_of_ne_top S _ h0 ht]
  refine Finset.sum_congr rfl fun u hu => ?_
  rw [hc u hu, mul_comm x, mul_assoc]

end EdgeSum
-- ==== Proof.LibRowGatherScatter.lean ====
/-
  Gathering rows by an index column, and scattering rows onto the rows an index column names, read at an index.

  `x[idx]` for a vector `x : [N]` or a matrix `x : [N, D]` and an index column `idx : [E, 1]` lowers to a gather that
  collapses axis 0: entry `e` (row `e`) of the result is the operand's entry (row) at the start index `idx[e, 0]`, read
  as a signed integer and clamped into `[0, N - 1]`. The accumulating scatter of `[E, D]` updates onto an `[N, D]`
  operand reads the same start index signed and does NOT clamp it: update `(e, k)` lands on `(idx[e, 0], k)` when that
  is a row of the operand and is dropped otherwise. So an update that lands on row `n` has start index exactly `n`.
-/
import Idealize.ShloMosaic.Lib.ValueIdx
import Idealize.ShloMosaic.PureOps.Ideal

noncomputable section

namespace RowIndex

open Idealize.ShloMosaic Idealize.ShloMosaic.ValueIdx

variable {α : Type}

/-- The position in the index column `[E, 1]` that entry (row) `e` reads. -/
abbrev colAt {E : Nat} (e : Fin E) : (⟨2, ![E, 1]⟩ : Shape).Idx := ix2 e (0 : Fin 1)

/-- A start index read signed and clamped into `[0, N - 1]`. -/
def clampRow (N : Nat) (hN : 0 < N) {w : Nat} (b : BitVec w) : Fin N := ⟨min b.toInt.toNat (N - 1), by omega⟩

/-! ## Entries of a vector gathered by an index column -/

/-- The gather's dimension numbers for an operand `[N]`, an index column `[E, 1]` and a result `[E]`. -/
abbrev takeEntries (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the gathered vector is the operand at the clamped start index `idx[e, 0]`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : (⟨1, ![E]⟩ : Shape).Idx) :
    Host.gather (takeEntries N E wf) x idx e = x (ix1 (clampRow N hN (idx (colAt (e 0))))) := by
  unfold Host.gather
  congr 1
  funext a
  obtain rfl : a = 0 := Subsingleton.elim _ _
  refine Fin.ext ?_
  show (takeEntries N E wf).start e idx 0 + (takeEntries N E wf).batchCoord e 0 + (takeEntries N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeEntries N E wf).startIndexMap from List.mem_singleton.mpr rfl)]
  have hsi : (takeEntries N E wf).siIdx e ⟨List.idxOf (0 : Fin 1) (takeEntries N E wf).startIndexMap,
      List.idxOf_lt_length_iff.2 (List.mem_singleton.mpr rfl)⟩ = colAt (e 0) := by
    funext b; refine Fin.ext ?_
    match b with
    | ⟨0, _⟩ => rfl
    | ⟨1, _⟩ => rfl
  rw [hsi]
  rfl

/-! ## Rows of a matrix gathered by an index column -/

/-- The gather's dimension numbers for an operand `[N, D]`, an index column `[E, 1]` and a result `[E, D]`. -/
abbrev takeRows (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, k)` of the gathered matrix is the operand at row "clamped `idx[e, 0]`", column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (takeRows N E D wf) x idx j = x (ix2 (clampRow N hN (idx (colAt (j 0)))) (j 1)) := by
  unfold Host.gather
  congr 1
  funext a
  refine Fin.ext ?_
  match a with
  | ⟨0, _⟩ =>
    show (takeRows N E D wf).start j idx 0 + (takeRows N E D wf).batchCoord j 0 + (takeRows N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N E D wf).startIndexMap from List.mem_singleton.mpr rfl)]
    have hsi : (takeRows N E D wf).siIdx j ⟨List.idxOf (0 : Fin 2) (takeRows N E D wf).startIndexMap,
        List.idxOf_lt_length_iff.2 (List.mem_singleton.mpr rfl)⟩ = colAt (j 0) := by
      funext b; refine Fin.ext ?_
      match b with
      | ⟨0, _⟩ => rfl
      | ⟨1, _⟩ => rfl
    rw [hsi]
    rfl
  | ⟨1, _⟩ =>
    show (takeRows N E D wf).start j idx 1 + (takeRows N E D wf).batchCoord j 1 + (takeRows N E D wf).offCoord j 1 = (j 1).val
    rw [GatherDims.batchCoord_eq_zero _ _ _ List.not_mem_nil]
    have hst : (takeRows N E D wf).start j idx 1 = 0 := by
      unfold GatherDims.start
      rw [dif_neg (show ¬ ((1 : Fin 2) ∈ ([0] : List (Fin 2))) by decide)]
    rw [hst]
    simp only [Nat.add_zero, Nat.zero_add]
    rfl

/-! ## Rows scattered onto the rows an index column names -/

/-- The scatter's dimension numbers for an operand `[N, D]`, an index column `[E, 1]` and updates `[E, D]`. -/
abbrev putRows (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, k)` that lands on the operand's entry `i` has start index `idx[e, 0]`, read signed, equal to `i`'s
    row: the scatter does not clamp. -/
theorem scatter_rows_landing {N E D w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (putRows N E D wf).resultIdx? j idx = some i) : (idx (colAt (j 0))).toInt = ((i 0).val : ℤ) := by
  unfold ScatterDims.resultIdx? at h
  split at h
  · rename_i hc
    have h0 := (hc 0).1
    have hi := congrFun (Option.some.inj h) 0
    have hs : (putRows N E D wf).start j idx 0 = (idx (colAt (j 0))).toInt := by
      unfold ScatterDims.start
      rw [dif_pos (show (0 : Fin 2) ∈ (putRows N E D wf).scatterDimsToOperandDims from List.mem_singleton.mpr rfl)]
      have hsi : (putRows N E D wf).siIdx j ⟨List.idxOf (0 : Fin 2) (putRows N E D wf).scatterDimsToOperandDims,
          List.idxOf_lt_length_iff.2 (List.mem_singleton.mpr rfl)⟩ = colAt (j 0) := by
        funext b; refine Fin.ext ?_
        match b with
        | ⟨0, _⟩ => rfl
        | ⟨1, _⟩ => rfl
      rw [hsi]
      rfl
    have hw : (putRows N E D wf).window j 0 = 0 := by
      unfold ScatterDims.window
      have hmem : (0 : Fin 2) ∉ (putRows N E D wf).sKept :=
        (show ¬ ((0 : Fin 2) ∈ (List.finRange 2).filter (fun a => a ∉ [(0 : Fin 2)])) by decide)
      rw [dif_neg hmem]
    have hi' : (i 0).val = ((putRows N E D wf).start j idx 0 + ((putRows N E D wf).window j 0 : ℕ)).toNat := by
      rw [← hi]
    rw [hs, hw] at hi'
    rw [hs, hw] at h0
    omega
  · exact absurd h (by simp)

/-- A start index that is a row number `n < N` read signed is not negative, and clamps to `n`. -/
theorem clampRow_of_toInt {N w : Nat} (hN : 0 < N) (b : BitVec w) (n : Fin N) (h : b.toInt = (n.val : ℤ)) :
    clampRow N hN b = n := by
  refine Fin.ext ?_
  show min b.toInt.toNat (N - 1) = n.val
  rw [h]
  have := n.isLt
  simp only [Int.toNat_natCast]
  omega

end RowIndex

end
-- ==== Proof.GraphConv.lean ====
/-
  Two arrangements of one graph-convolution layer, and the law that joins them.

  A layer takes node features `h : [50000, 128]`, a weight `d n` per node (the inverse square root of the node's degree
  plus one), a bias row, and the edge list as two index columns `[800000, 1]`: the sources (already wrapped: a negative
  index counted from the end) and the targets (raw). The aggregate at node `n` sums the messages of the edges that
  land on `n`; an edge whose target is not a row of the array contributes nothing.

  • Scaling each message: the message of edge `e` is `h[src e] * (d[src e] * d[tgt e])`, with both weights gathered
    per edge (the target's through the wrapped target column), and the layer is `agg + h * (d * d) + b`.
  • Scaling once per node: the message is `h[src e] * d[src e]`, and the layer is `d * agg + h * (d * d) + b`.

  They agree because every edge that lands on node `n` has target weight `d n` — the scatter does not clamp, so its
  start index IS `n`, a nonnegative index, which the wrap leaves alone and the gather's clamp leaves alone — and
  because `d n` is a nonnegative finite number, which distributes over the sum on the extended reals.
-/
import Idealize.ShloMosaic.PureOps.Ideal
import Idealize.ShloMosaic.PureOps.Ideal.Laws
import Idealize.ShloMosaic.Lib.ValueIdx
import proofs.«171717_j25975962206483_2_alg».proof.Proof.LibScaledSum
import proofs.«171717_j25975962206483_2_alg».proof.Proof.LibRowGatherScatter

noncomputable section

namespace GraphConv

open Idealize.ShloMosaic Idealize.ShloMosaic.ValueIdx RowIndex

abbrev Nodes : Shape := ⟨1, ![50000]⟩
abbrev Feats : Shape := ⟨1, ![128]⟩
abbrev NodeFeat : Shape := ⟨2, ![50000, 128]⟩
abbrev FeatFeat : Shape := ⟨2, ![128, 128]⟩
abbrev EdgeCol : Shape := ⟨2, ![800000, 1]⟩
abbrev EdgeFeat : Shape := ⟨2, ![800000, 128]⟩
abbrev Edges : Shape := ⟨1, ![800000]⟩

/-- The float word of zero, as an extended real. -/
abbrev zeroF : EReal := Ideal.ofBits .f32 0x00000000#32
/-- The float word of one, as an extended real. -/
abbrev oneF : EReal := Ideal.ofBits .f32 0x3F800000#32

theorem zeroF_eq : zeroF = 0 := Ideal.ofBits_zero_f32
theorem oneF_eq : oneF = 1 := by
  simp [oneF, Ideal.ofBits, Ideal.ieee]
  rw [← EReal.coe_mul]
  norm_num

theorem nodes_pos : 0 < 50000 := by norm_num

/-! ## The pieces of a layer -/

/-- Features times a weight matrix: row `i 0` of `x` against column `i 1` of `w`. -/
def transform (x : NodeFeat.Idx → EReal) (w : FeatFeat.Idx → EReal) : NodeFeat.Idx → EReal :=
  fun i => ∑ e : Fin 128, x (ix2 (i 0) e) * w (ix2 e (i 1))

/-- Features with each node's row scaled by the node's weight. -/
def scaleRows (h : NodeFeat.Idx → EReal) (d : Nodes.Idx → EReal) : NodeFeat.Idx → EReal :=
  fun i => h i * d (ix1 (i 0))

/-- The rectifier. -/
def relu (v : NodeFeat.Idx → EReal) : NodeFeat.Idx → EReal := fun i => max (v i) zeroF

variable (wfG : GatherDims.WF NodeFeat EdgeCol EdgeFeat [1] [0] [] [0] [] 1 ![1, 128])
variable (wfG1 : GatherDims.WF Nodes EdgeCol Edges [] [0] [] [0] [] 1 ![1])
variable (wfS : ScatterDims.WF NodeFeat EdgeCol EdgeFeat [1] [0] [0] 1)

/-- The aggregate when each node's features are scaled once, before the edges read them. -/
def aggOnce (d : Nodes.Idx → EReal) (h : NodeFeat.Idx → EReal) (isrc idst : IVec EdgeCol 32) : NodeFeat.Idx → EReal :=
  Ideal.hostScatterAdd (putRows 50000 800000 128 wfS) (fun _ => zeroF) idst
    (Host.gather (takeRows 50000 800000 128 wfG) (scaleRows h d) isrc)

/-- The aggregate when each edge's message is scaled by the product of its two gathered weights. -/
def aggEach (d : Nodes.Idx → EReal) (h : NodeFeat.Idx → EReal) (isrc idst idstW : IVec EdgeCol 32) : NodeFeat.Idx → EReal :=
  Ideal.hostScatterAdd (putRows 50000 800000 128 wfS) (fun _ => zeroF) idst
    (fun u => Host.gather (takeRows 50000 800000 128 wfG) h isrc u
      * (Host.gather (takeEntries 50000 800000 wfG1) d isrc (ix1 (u 0))
        * Host.gather (takeEntries 50000 800000 wfG1) d idstW (ix1 (u 0))))

/-- The layer, scaling once per node. -/
def layerOnce (d : Nodes.Idx → EReal) (agg h : NodeFeat.Idx → EReal) (b : Feats.Idx → EReal) : NodeFeat.Idx → EReal :=
  fun i => (d (ix1 (i 0)) * agg i + h i * (d (ix1 (i 0)) * d (ix1 (i 0)))) + b (ix1 (i 1))

/-- The layer, with the aggregate already scaled edge by edge. -/
def layerEach (d : Nodes.Idx → EReal) (agg h : NodeFeat.Idx → EReal) (b : Feats.Idx → EReal) : NodeFeat.Idx → EReal :=
  fun i => (agg i + h i * (d (ix1 (i 0)) * d (ix1 (i 0)))) + b (ix1 (i 1))

/-! ## The law -/

/-- THE AGGREGATION LAW: a node's nonnegative finite weight times the aggregate of source-scaled messages is the
    aggregate of messages scaled by both weights, when the wrapped target column reads the landing row wherever an
    edge lands. -/
theorem agg_scale (d : Nodes.Idx → EReal) (h : NodeFeat.Idx → EReal) (isrc idst idstW : IVec EdgeCol 32)
    (hd : ∀ n, 0 ≤ d n ∧ d n ≠ ⊤)
    (hlink : ∀ (e : Fin 800000) (n : Fin 50000), (idst (colAt e)).toInt = (n.val : ℤ) →
      clampRow 50000 nodes_pos (idstW (colAt e)) = n)
    (i : NodeFeat.Idx) :
    d (ix1 (i 0)) * aggOnce wfG wfS d h isrc idst i = aggEach wfG wfG1 wfS d h isrc idst idstW i := by
  unfold aggOnce aggEach Ideal.hostScatterAdd
  have hg : ∀ u : EdgeFeat.Idx, Host.gather (takeRows 50000 800000 128 wfG) (scaleRows h d) isrc u
      = Host.gather (takeRows 50000 800000 128 wfG) h isrc u
        * Host.gather (takeEntries 50000 800000 wfG1) d isrc (ix1 (u 0)) := by
    intro u
    rw [gather_rows_apply nodes_pos, gather_rows_apply nodes_pos, gather_entries_apply nodes_pos]
    rfl
  simp only [hg]
  refine EdgeSum.scale_once_eq_scale_each _ _ _ _ (hd _).1 (hd _).2 zeroF_eq fun u hu => ?_
  have hl := scatter_rows_landing wfS idst u i (Finset.mem_filter.mp hu).2
  rw [gather_entries_apply nodes_pos]
  exact congrArg (fun r => d (ix1 r)) (hlink (u 0) (i 0) hl)

/-- The two arrangements of the layer are one function. -/
theorem layer_eq (d : Nodes.Idx → EReal) (h : NodeFeat.Idx → EReal) (b : Feats.Idx → EReal) (isrc idst idstW : IVec EdgeCol 32)
    (hd : ∀ n, 0 ≤ d n ∧ d n ≠ ⊤)
    (hlink : ∀ (e : Fin 800000) (n : Fin 50000), (idst (colAt e)).toInt = (n.val : ℤ) →
      clampRow 50000 nodes_pos (idstW (colAt e)) = n) :
    layerOnce d (aggOnce wfG wfS d h isrc idst) h b = layerEach d (aggEach wfG wfG1 wfS d h isrc idst idstW) h b := by
  funext i
  unfold layerOnce layerEach
  rw [agg_scale wfG wfG1 wfS d h isrc idst idstW hd hlink i]

/-! ## The weights are nonnegative and finite -/

/-- The inverse square root of a positive extended real is nonnegative and finite. -/
theorem rsqrt_nonneg_ne_top (y : EReal) (hy : 0 < y) : 0 ≤ Ideal.rsqrt y ∧ Ideal.rsqrt y ≠ ⊤ := by
  induction y using EReal.rec with
  | bot => exact absurd hy (by simp)
  | top => simp
  | coe r =>
    have hr : 0 < r := by exact_mod_cast hy
    rw [Ideal.rsqrt_coe, if_neg (not_lt.mpr hr.le), if_neg hr.ne']
    refine ⟨?_, EReal.coe_ne_top _⟩
    exact_mod_cast inv_nonneg.mpr (Real.sqrt_nonneg r)

/-- A count of ones (from zero) plus one is positive, so its inverse square root is a nonnegative finite weight. -/
theorem weight_of_count {υ : Type*} (S : Finset υ) :
    0 ≤ Ideal.rsqrt ((zeroF + ∑ _u ∈ S, oneF) + oneF) ∧ Ideal.rsqrt ((zeroF + ∑ _u ∈ S, oneF) + oneF) ≠ ⊤ := by
  refine rsqrt_nonneg_ne_top _ ?_
  rw [zeroF_eq, oneF_eq, zero_add]
  have h0 : (0 : EReal) ≤ ∑ _u ∈ S, (1 : EReal) := Finset.sum_nonneg fun _ _ => zero_le_one
  calc (0 : EReal) < 1 := zero_lt_one
    _ = 0 + 1 := (zero_add 1).symm
    _ ≤ (∑ _u ∈ S, (1 : EReal)) + 1 := add_le_add_left h0 1

/-! ## The wrap of a nonnegative index -/

/-- A nonnegative index is not "less than zero", so wrapping negative indices leaves it alone. -/
theorem wrap_of_nonneg (b : BitVec 32) (h : 0 ≤ b.toInt) :
    Scalar.select (IntOp.cmpi .slt b 0#32) (IntOp.addi b 50000#32) b = b := by
  have hs : b.slt 0#32 = false := by
    simp only [BitVec.slt, BitVec.toInt_zero, decide_eq_false_iff_not, not_lt]
    exact h
  unfold IntOp.cmpi Scalar.select
  simp [hs]

end GraphConv

end
-- ==== Proof.KernelRegion0.lean ====
/-
  Region 0's two output arrays, whole.

  The region walks 25 points; at point `t` it reads rows `2000 t … 2000 t + 1999` of the node features and of the
  node-weight column, and all of the 128 x 128 weights, and writes back the same rows of two arrays. Since entry
  `(p, q)` of what a point stores depends only on row `p` of the features (and of the weight column), each stored block
  is the block of ONE whole-array function: the features times the weights, and that product with every row scaled by
  its node's weight. The 25 blocks cover the 50000 rows, so after the region the two arrays ARE those functions of
  the arrays the region found on entry.
-/
import proofs.«171717_j25975962206483_2_alg».proof.Proof.Gen.KernelIdeal.Frame
import proofs.«171717_j25975962206483_2_alg».proof.Proof.KernelBodies
import proofs.«171717_j25975962206483_2_alg».proof.Proof.GraphConv

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The node-weight column as a vector: entry `n` is the column's entry `(n, 0)`. -/
def colVec (col : S50000x1.Idx → EReal) : GraphConv.Nodes.Idx → EReal := fun n => col (ix2 (n 0) (0 : Fin 1))

/-- The printed index maps, decided over the 25 points: every row-blocked window is at block row `t`, block column 0;
    the weights are at block (0, 0). -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_4.index t (0 : Fin 2) = win0_3.index t (0 : Fin 2) ∧ win0_4.index t (1 : Fin 2) = 0
    ∧ win0_3.index t (1 : Fin 2) = 0 ∧ win0_3.index t (0 : Fin 2) ≤ 24 :=
  (by decide +kernel : ∀ t : Fin grid0.N, _)

/-- Every block row is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-! ## The input blocks, read where the output block's rows are -/

/-- The feature block at `(p, e)` is the feature array at the output block's row for `p`, column `e`. -/
theorem read_feat (c : Dev nD) (t : Fin cfg0.N) (p : Fin 2000) (q e : Fin 128) :
    iblk0 V c 0 t (ix2 p e) = V c main_arg0 (ix2 ((((cfg0.win 3).blk t).view.emb (ix2 p q)) 0) e) := by
  obtain ⟨e0, e1, e2, e3, e4, e5, e6, e7, e8, e9⟩ := idx_facts t
  show V c main_arg0 (((cfg0.win 0).blk t).view.emb (ix2 p e)) = _
  refine congrArg (V c main_arg0) ?_
  funext a; apply Fin.ext
  match a with
  | ⟨0, _⟩ => show win0_0.index t (0 : Fin 2) * 2000 + 1 * p.val = win0_3.index t (0 : Fin 2) * 2000 + 1 * p.val; omega
  | ⟨1, _⟩ => show win0_0.index t (1 : Fin 2) * 128 + 1 * e.val = e.val; omega

/-- The weights' block is the weights. -/
theorem read_weights (c : Dev nD) (t : Fin cfg0.N) (p : Fin 2000) (q e : Fin 128) :
    iblk0 V c 1 t (ix2 e q) = V c main_arg2 (ix2 e ((((cfg0.win 3).blk t).view.emb (ix2 p q)) 1)) := by
  obtain ⟨e0, e1, e2, e3, e4, e5, e6, e7, e8, e9⟩ := idx_facts t
  show V c main_arg2 (((cfg0.win 1).blk t).view.emb (ix2 e q)) = _
  refine congrArg (V c main_arg2) ?_
  funext a; apply Fin.ext
  match a with
  | ⟨0, _⟩ => show win0_1.index t (0 : Fin 2) * 128 + 1 * e.val = e.val; omega
  | ⟨1, _⟩ => show win0_1.index t (1 : Fin 2) * 128 + 1 * q.val = win0_3.index t (1 : Fin 2) * 128 + 1 * q.val; omega

/-- The weight column's block at `(p, 0)` is the column at the output block's row for `p`. -/
theorem read_col (c : Dev nD) (t : Fin cfg0.N) (p : Fin 2000) (q : Fin 128) :
    iblk0 V c 2 t (ix2 p (0 : Fin 1)) = V c main_v11 (ix2 ((((cfg0.win 3).blk t).view.emb (ix2 p q)) 0) (0 : Fin 1)) := by
  obtain ⟨e0, e1, e2, e3, e4, e5, e6, e7, e8, e9⟩ := idx_facts t
  show V c main_v11 (((cfg0.win 2).blk t).view.emb (ix2 p (0 : Fin 1))) = _
  refine congrArg (V c main_v11) ?_
  funext a; apply Fin.ext
  match a with
  | ⟨0, _⟩ => show win0_2.index t (0 : Fin 2) * 2000 + 1 * p.val = win0_3.index t (0 : Fin 2) * 2000 + 1 * p.val; omega
  | ⟨1, _⟩ => show win0_2.index t (1 : Fin 2) * 1 + 1 * 0 = 0; omega

/-- Windows 3 and 4 sit on the same rows. -/
theorem emb_out (t : Fin cfg0.N) (j : S2000x128.Idx) :
    ((cfg0.win 4).blk t).view.emb j = ((cfg0.win 3).blk t).view.emb j := by
  obtain ⟨e0, e1, e2, e3, e4, e5, e6, e7, e8, e9⟩ := idx_facts t
  funext a; apply Fin.ext
  match a with
  | ⟨0, _⟩ => show win0_4.index t (0 : Fin 2) * 2000 + 1 * (j 0).val = win0_3.index t (0 : Fin 2) * 2000 + 1 * (j 0).val; omega
  | ⟨1, _⟩ => show win0_4.index t (1 : Fin 2) * 128 + 1 * (j 1).val = win0_3.index t (1 : Fin 2) * 128 + 1 * (j 1).val; omega

/-! ## What a point writes back -/

/-- Point `t` writes back block `t` of the features times the weights. -/
theorem flushed_product (c : Dev nD) (t : Fin cfg0.N) :
    (dat0 V c).flushed 3 t = ((cfg0.win 3).blk t).view.read (Elt Ideal)
      (GraphConv.transform (V c main_arg0) (V c main_arg2)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz]
  funext j
  obtain ⟨p, q, rfl⟩ : ∃ (p : Fin 2000) (q : Fin 128), j = ix2 p q := ⟨j 0, j 1, eq_ix2 j⟩
  show k0_pay2 (F := Ideal) (iblk0 V c 0 t) (iblk0 V c 1 t) (ix2 p q)
    = GraphConv.transform (V c main_arg0) (V c main_arg2) (((cfg0.win 3).blk t).view.emb (ix2 p q))
  refine (Bodies.body0_product _ _ p q).trans ?_
  unfold GraphConv.transform
  refine Finset.sum_congr rfl fun e _ => ?_
  rw [read_feat V c t p q e, read_weights V c t p q e]

/-- Point `t` writes back block `t` of the product with its rows scaled by the node weights. -/
theorem flushed_scaled (c : Dev nD) (t : Fin cfg0.N) :
    (dat0 V c).flushed 4 t = ((cfg0.win 4).blk t).view.read (Elt Ideal)
      (GraphConv.scaleRows (GraphConv.transform (V c main_arg0) (V c main_arg2)) (colVec (V c main_v11))) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz, View.ld_unit_zero (S := S2000x1) hz]
  funext j
  obtain ⟨p, q, rfl⟩ : ∃ (p : Fin 2000) (q : Fin 128), j = ix2 p q := ⟨j 0, j 1, eq_ix2 j⟩
  show k0_pay3 (F := Ideal) (iblk0 V c 0 t) (iblk0 V c 1 t) (iblk0 V c 2 t) (ix2 p q)
    = GraphConv.scaleRows (GraphConv.transform (V c main_arg0) (V c main_arg2)) (colVec (V c main_v11))
        (((cfg0.win 4).blk t).view.emb (ix2 p q))
  rw [emb_out t (ix2 p q)]
  refine (Bodies.body0_scaled _ _ _ p q).trans ?_
  unfold GraphConv.scaleRows GraphConv.transform colVec
  rw [read_col V c t p q]
  refine congrArg (· * _) ?_
  refine Finset.sum_congr rfl fun e _ => ?_
  rw [read_feat V c t p q e, read_weights V c t p q e]

/-! ## The blocks cover the arrays -/

theorem mem_blk3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v12_0).slice (win0_3.rect t)).set ↔ _
  rw [View.set_slice_whole, Rect.mem_set_unit]
  exact Iff.rfl

theorem mem_blk4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v12_1).slice (win0_4.rect t)).set ↔ _
  rw [View.set_slice_whole, Rect.mem_set_unit]
  exact Iff.rfl

theorem cover3 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem cover4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 2000, by omega⟩
  obtain ⟨e0, e1, e2, e3, e4, e5, e6, e7, e8, e9⟩ := idx_facts t
  have q0 : win0_3.index t (0 : Fin 2) = (i 0).val / 2000 := congrFun ht 0
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-! ## The arrays after the region -/

/-- The first output array after the region: the features times the weights. -/
theorem product_array (c : Dev nD) :
    (dat0 V c).arrAt 3 cfg0.N = GraphConv.transform (V c main_arg0) (V c main_arg2) :=
  (dat0 V c).arrAt_eq_of_cover 3 _ (fun t _ => flushed_product V c t) cover3

/-- The second output array after the region: that product with every row scaled by its node's weight. -/
theorem scaled_array (c : Dev nD) :
    (dat0 V c).arrAt 4 cfg0.N
      = GraphConv.scaleRows (GraphConv.transform (V c main_arg0) (V c main_arg2)) (colVec (V c main_v11)) :=
  (dat0 V c).arrAt_eq_of_cover 4 _ (fun t _ => flushed_scaled V c t) cover4

end Cert.KernelIdeal.Region0

end
-- ==== Proof.KernelRegion1.lean ====
/-
  Region 1's two output arrays, whole.

  At point `t` the region reads rows `2000 t … 2000 t + 1999` of the layer-one aggregate, of the layer-one features
  and of the node-weight column, the bias row and the second 128 x 128 weights. Per entry it forms the rectified
  layer-one output `max (d * agg + h * (d * d) + b, 0)`, multiplies those rows by the weights, and writes back the
  product and the product with each row scaled by its node's weight. Each stored block is the block of one
  whole-array function, and the 25 blocks cover the 50000 rows.
-/
import proofs.«171717_j25975962206483_2_alg».proof.Proof.Gen.KernelIdeal.Frame
import proofs.«171717_j25975962206483_2_alg».proof.Proof.KernelBodies
import proofs.«171717_j25975962206483_2_alg».proof.Proof.GraphConv
import proofs.«171717_j25975962206483_2_alg».proof.Proof.KernelRegion0

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The bias row as a vector: entry `k` is the row's entry `(0, k)`. -/
def rowVec (row : S1x128.Idx → EReal) : GraphConv.Feats.Idx → EReal := fun k => row (ix2 (0 : Fin 1) (k 0))

/-- The printed index maps, decided over the 25 points. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = win1_5.index t (0 : Fin 2) ∧ win1_6.index t (1 : Fin 2) = 0
    ∧ win1_5.index t (1 : Fin 2) = 0 ∧ win1_5.index t (0 : Fin 2) ≤ 24 :=
  (by decide +kernel : ∀ t : Fin grid1.N, _)

/-- Every block row is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-! ## The input blocks, read where the output block's rows are -/

/-- The aggregate block at `(p, e)` is the aggregate array at the output block's row for `p`, column `e`. -/
theorem read_agg (c : Dev nD) (t : Fin cfg1.N) (p : Fin 2000) (q e : Fin 128) :
    iblk1 V c 0 t (ix2 p e) = V c main_v23 (ix2 ((((cfg1.win 5).blk t).view.emb (ix2 p q)) 0) e) := by
  have hf := idx_facts t
  show V c main_v23 (((cfg1.win 0).blk t).view.emb (ix2 p e)) = _
  refine congrArg (V c main_v23) ?_
  funext a; apply Fin.ext
  match a with
  | ⟨0, _⟩ => show win1_0.index t (0 : Fin 2) * 2000 + 1 * p.val = win1_5.index t (0 : Fin 2) * 2000 + 1 * p.val; omega
  | ⟨1, _⟩ => show win1_0.index t (1 : Fin 2) * 128 + 1 * e.val = e.val; omega

/-- The feature block at `(p, e)` is the feature array at the output block's row for `p`, column `e`. -/
theorem read_feat (c : Dev nD) (t : Fin cfg1.N) (p : Fin 2000) (q e : Fin 128) :
    iblk1 V c 1 t (ix2 p e) = V c main_v12_0 (ix2 ((((cfg1.win 5).blk t).view.emb (ix2 p q)) 0) e) := by
  have hf := idx_facts t
  show V c main_v12_0 (((cfg1.win 1).blk t).view.emb (ix2 p e)) = _
  refine congrArg (V c main_v12_0) ?_
  funext a; apply Fin.ext
  match a with
  | ⟨0, _⟩ => show win1_1.index t (0 : Fin 2) * 2000 + 1 * p.val = win1_5.index t (0 : Fin 2) * 2000 + 1 * p.val; omega
  | ⟨1, _⟩ => show win1_1.index t (1 : Fin 2) * 128 + 1 * e.val = e.val; omega

/-- The weight column's block at `(p, 0)` is the column at the output block's row for `p`. -/
theorem read_col (c : Dev nD) (t : Fin cfg1.N) (p : Fin 2000) (q : Fin 128) :
    iblk1 V c 2 t (ix2 p (0 : Fin 1)) = V c main_v11 (ix2 ((((cfg1.win 5).blk t).view.emb (ix2 p q)) 0) (0 : Fin 1)) := by
  have hf := idx_facts t
  show V c main_v11 (((cfg1.win 2).blk t).view.emb (ix2 p (0 : Fin 1))) = _
  refine congrArg (V c main_v11) ?_
  funext a; apply Fin.ext
  match a with
  | ⟨0, _⟩ => show win1_2.index t (0 : Fin 2) * 2000 + 1 * p.val = win1_5.index t (0 : Fin 2) * 2000 + 1 * p.val; omega
  | ⟨1, _⟩ => show win1_2.index t (1 : Fin 2) * 1 + 1 * 0 = 0; omega

/-- The bias row's block is the bias row. -/
theorem read_bias (c : Dev nD) (t : Fin cfg1.N) (e : Fin 128) :
    iblk1 V c 3 t (ix2 (0 : Fin 1) e) = V c main_v24 (ix2 (0 : Fin 1) e) := by
  have hf := idx_facts t
  show V c main_v24 (((cfg1.win 3).blk t).view.emb (ix2 (0 : Fin 1) e)) = _
  refine congrArg (V c main_v24) ?_
  funext a; apply Fin.ext
  match a with
  | ⟨0, _⟩ => show win1_3.index t (0 : Fin 2) * 1 + 1 * 0 = 0; omega
  | ⟨1, _⟩ => show win1_3.index t (1 : Fin 2) * 128 + 1 * e.val = e.val; omega

/-- The weights' block is the weights. -/
theorem read_weights (c : Dev nD) (t : Fin cfg1.N) (p : Fin 2000) (q e : Fin 128) :
    iblk1 V c 4 t (ix2 e q) = V c main_arg4 (ix2 e ((((cfg1.win 5).blk t).view.emb (ix2 p q)) 1)) := by
  have hf := idx_facts t
  show V c main_arg4 (((cfg1.win 4).blk t).view.emb (ix2 e q)) = _
  refine congrArg (V c main_arg4) ?_
  funext a; apply Fin.ext
  match a with
  | ⟨0, _⟩ => show win1_4.index t (0 : Fin 2) * 128 + 1 * e.val = e.val; omega
  | ⟨1, _⟩ => show win1_4.index t (1 : Fin 2) * 128 + 1 * q.val = win1_5.index t (1 : Fin 2) * 128 + 1 * q.val; omega

/-- Windows 5 and 6 sit on the same rows. -/
theorem emb_out (t : Fin cfg1.N) (j : S2000x128.Idx) :
    ((cfg1.win 6).blk t).view.emb j = ((cfg1.win 5).blk t).view.emb j := by
  have hf := idx_facts t
  funext a; apply Fin.ext
  match a with
  | ⟨0, _⟩ => show win1_6.index t (0 : Fin 2) * 2000 + 1 * (j 0).val = win1_5.index t (0 : Fin 2) * 2000 + 1 * (j 0).val; omega
  | ⟨1, _⟩ => show win1_6.index t (1 : Fin 2) * 128 + 1 * (j 1).val = win1_5.index t (1 : Fin 2) * 128 + 1 * (j 1).val; omega

/-! ## What a point writes back -/

/-- The rectified layer-one output, as a function of the arrays the region finds. -/
abbrev hidden (c : Dev nD) : S50000x128.Idx → EReal :=
  GraphConv.relu (GraphConv.layerOnce (Region0.colVec (V c main_v11)) (V c main_v23) (V c main_v12_0) (rowVec (V c main_v24)))

/-- One term of the product a point forms, read off the arrays. -/
theorem term_eq (c : Dev nD) (t : Fin cfg1.N) (p : Fin 2000) (q e : Fin 128) :
    max (Bodies.mix (iblk1 V c 2 t (ix2 p (0 : Fin 1))) (iblk1 V c 0 t (ix2 p e)) (iblk1 V c 1 t (ix2 p e))
        (iblk1 V c 3 t (ix2 (0 : Fin 1) e))) Bodies.zeroF * iblk1 V c 4 t (ix2 e q)
      = hidden V c (ix2 ((((cfg1.win 5).blk t).view.emb (ix2 p q)) 0) e) * V c main_arg4 (ix2 e ((((cfg1.win 5).blk t).view.emb (ix2 p q)) 1)) := by
  rw [read_col V c t p q, read_agg V c t p q e, read_feat V c t p q e, read_bias V c t e, read_weights V c t p q e]
  rfl

/-- Point `t` writes back block `t` of the hidden features times the second weights. -/
theorem flushed_product (c : Dev nD) (t : Fin cfg1.N) :
    (dat1 V c).flushed 5 t = ((cfg1.win 5).blk t).view.read (Elt Ideal)
      (GraphConv.transform (hidden V c) (V c main_arg4)) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz,
    View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  show k1_pay3 (F := Ideal) (iblk1 V c 2 t) (iblk1 V c 0 t) (iblk1 V c 1 t) (iblk1 V c 3 t) (iblk1 V c 4 t) (ix2 p q)
    = GraphConv.transform (hidden V c) (V c main_arg4) (((cfg1.win 5).blk t).view.emb (ix2 p q))
  refine (Bodies.body1_stored _ _ _ _ _ p q).trans ?_
  unfold GraphConv.transform
  exact Finset.sum_congr rfl fun e _ => term_eq V c t p q e

/-- Point `t` writes back block `t` of that product with its rows scaled by the node weights. -/
theorem flushed_scaled (c : Dev nD) (t : Fin cfg1.N) :
    (dat1 V c).flushed 6 t = ((cfg1.win 6).blk t).view.read (Elt Ideal)
      (GraphConv.scaleRows (GraphConv.transform (hidden V c) (V c main_arg4)) (Region0.colVec (V c main_v11))) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz,
    View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  show k1_pay4 (F := Ideal) (iblk1 V c 2 t) (iblk1 V c 0 t) (iblk1 V c 1 t) (iblk1 V c 3 t) (iblk1 V c 4 t) (ix2 p q)
    = GraphConv.scaleRows (GraphConv.transform (hidden V c) (V c main_arg4)) (Region0.colVec (V c main_v11))
        (((cfg1.win 6).blk t).view.emb (ix2 p q))
  rw [emb_out t (ix2 p q)]
  refine (Bodies.body1_scaled _ _ _ _ _ p q).trans ?_
  show (∑ e : Fin 128, max (Bodies.mix (iblk1 V c 2 t (ix2 p (0 : Fin 1))) (iblk1 V c 0 t (ix2 p e)) (iblk1 V c 1 t (ix2 p e))
        (iblk1 V c 3 t (ix2 (0 : Fin 1) e))) Bodies.zeroF * iblk1 V c 4 t (ix2 e q)) * iblk1 V c 2 t (ix2 p (0 : Fin 1))
    = (∑ e : Fin 128, hidden V c (ix2 ((((cfg1.win 5).blk t).view.emb (ix2 p q)) 0) e) * V c main_arg4 (ix2 e ((((cfg1.win 5).blk t).view.emb (ix2 p q)) 1)))
        * V c main_v11 (ix2 ((((cfg1.win 5).blk t).view.emb (ix2 p q)) 0) (0 : Fin 1))
  exact congrArg₂ (· * ·) (Finset.sum_congr rfl fun e _ => term_eq V c t p q e) (read_col V c t p q)

/-! ## The blocks cover the arrays -/

theorem mem_blk5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v25_0).slice (win1_5.rect t)).set ↔ _
  rw [View.set_slice_whole, Rect.mem_set_unit]
  exact Iff.rfl

theorem mem_blk6 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v25_1).slice (win1_6.rect t)).set ↔ _
  rw [View.set_slice_whole, Rect.mem_set_unit]
  exact Iff.rfl

theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 2000, by omega⟩
  have hf := idx_facts t
  have q0 : win1_5.index t (0 : Fin 2) = (i 0).val / 2000 := congrFun ht 0
  refine ⟨t, flush1_5 t, ?_⟩
  rw [mem_blk5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

theorem cover6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 2000, by omega⟩
  have hf := idx_facts t
  have q0 : win1_5.index t (0 : Fin 2) = (i 0).val / 2000 := congrFun ht 0
  refine ⟨t, flush1_6 t, ?_⟩
  rw [mem_blk6]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-! ## The arrays after the region -/

/-- The first output array after the region: the hidden features times the second weights. -/
theorem product_array (c : Dev nD) :
    (dat1 V c).arrAt 5 cfg1.N = GraphConv.transform (hidden V c) (V c main_arg4) :=
  (dat1 V c).arrAt_eq_of_cover 5 _ (fun t _ => flushed_product V c t) cover5

/-- The second output array after the region: that product with every row scaled by its node's weight. -/
theorem scaled_array (c : Dev nD) :
    (dat1 V c).arrAt 6 cfg1.N
      = GraphConv.scaleRows (GraphConv.transform (hidden V c) (V c main_arg4)) (Region0.colVec (V c main_v11)) :=
  (dat1 V c).arrAt_eq_of_cover 6 _ (fun t _ => flushed_scaled V c t) cover6

end Cert.KernelIdeal.Region1

end
-- ==== Proof.KernelRegion2.lean ====
/-
  Region 2's output array, whole.

  At point `t` the region reads rows `2000 t … 2000 t + 1999` of the layer-two aggregate, of the layer-two features, of
  the node-weight column and of the input features (the residual), and the bias row, and writes back
  `max (d * agg + h * (d * d) + b + x, 0)` entry by entry. Each stored block is the block of one whole-array function,
  and the 25 blocks cover the 50000 rows.
-/
import proofs.«171717_j25975962206483_2_alg».proof.Proof.Gen.KernelIdeal.Frame
import proofs.«171717_j25975962206483_2_alg».proof.Proof.KernelBodies
import proofs.«171717_j25975962206483_2_alg».proof.Proof.GraphConv
import proofs.«171717_j25975962206483_2_alg».proof.Proof.KernelRegion0
import proofs.«171717_j25975962206483_2_alg».proof.Proof.KernelRegion1

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 25 points. -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = win2_5.index t (0 : Fin 2) ∧ win2_2.index t (1 : Fin 2) = 0
    ∧ win2_3.index t (0 : Fin 2) = 0 ∧ win2_3.index t (1 : Fin 2) = 0
    ∧ win2_4.index t (0 : Fin 2) = win2_5.index t (0 : Fin 2) ∧ win2_4.index t (1 : Fin 2) = 0
    ∧ win2_5.index t (1 : Fin 2) = 0 ∧ win2_5.index t (0 : Fin 2) ≤ 24 :=
  (by decide +kernel : ∀ t : Fin grid2.N, _)

/-- Every block row is some point's. -/
theorem idx_onto : ∀ q0 : Fin 25, ∃ t : Fin cfg2.N, win2_5.index t = ![q0.val, 0] :=
  (by decide +kernel : ∀ q0 : Fin 25, ∃ t : Fin grid2.N, win2_5.index t = ![q0.val, 0])

/-! ## The input blocks, read where the output block's rows are -/

/-- The aggregate block at `(p, e)` is the aggregate array at the output block's row for `p`, column `e`. -/
theorem read_agg (c : Dev nD) (t : Fin cfg2.N) (p : Fin 2000) (q e : Fin 128) :
    iblk2 V c 0 t (ix2 p e) = V c main_v36 (ix2 ((((cfg2.win 5).blk t).view.emb (ix2 p q)) 0) e) := by
  have hf := idx_facts t
  show V c main_v36 (((cfg2.win 0).blk t).view.emb (ix2 p e)) = _
  refine congrArg (V c main_v36) ?_
  funext a; apply Fin.ext
  match a with
  | ⟨0, _⟩ => show win2_0.index t (0 : Fin 2) * 2000 + 1 * p.val = win2_5.index t (0 : Fin 2) * 2000 + 1 * p.val; omega
  | ⟨1, _⟩ => show win2_0.index t (1 : Fin 2) * 128 + 1 * e.val = e.val; omega

/-- The feature block at `(p, e)` is the feature array at the output block's row for `p`, column `e`. -/
theorem read_feat (c : Dev nD) (t : Fin cfg2.N) (p : Fin 2000) (q e : Fin 128) :
    iblk2 V c 1 t (ix2 p e) = V c main_v25_0 (ix2 ((((cfg2.win 5).blk t).view.emb (ix2 p q)) 0) e) := by
  have hf := idx_facts t
  show V c main_v25_0 (((cfg2.win 1).blk t).view.emb (ix2 p e)) = _
  refine congrArg (V c main_v25_0) ?_
  funext a; apply Fin.ext
  match a with
  | ⟨0, _⟩ => show win2_1.index t (0 : Fin 2) * 2000 + 1 * p.val = win2_5.index t (0 : Fin 2) * 2000 + 1 * p.val; omega
  | ⟨1, _⟩ => show win2_1.index t (1 : Fin 2) * 128 + 1 * e.val = e.val; omega

/-- The weight column's block at `(p, 0)` is the column at the output block's row for `p`. -/
theorem read_col (c : Dev nD) (t : Fin cfg2.N) (p : Fin 2000) (q : Fin 128) :
    iblk2 V c 2 t (ix2 p (0 : Fin 1)) = V c main_v11 (ix2 ((((cfg2.win 5).blk t).view.emb (ix2 p q)) 0) (0 : Fin 1)) := by
  have hf := idx_facts t
  show V c main_v11 (((cfg2.win 2).blk t).view.emb (ix2 p (0 : Fin 1))) = _
  refine congrArg (V c main_v11) ?_
  funext a; apply Fin.ext
  match a with
  | ⟨0, _⟩ => show win2_2.index t (0 : Fin 2) * 2000 + 1 * p.val = win2_5.index t (0 : Fin 2) * 2000 + 1 * p.val; omega
  | ⟨1, _⟩ => show win2_2.index t (1 : Fin 2) * 1 + 1 * 0 = 0; omega

/-- The bias row's block is the bias row. -/
theorem read_bias (c : Dev nD) (t : Fin cfg2.N) (e : Fin 128) :
    iblk2 V c 3 t (ix2 (0 : Fin 1) e) = V c main_v37 (ix2 (0 : Fin 1) e) := by
  have hf := idx_facts t
  show V c main_v37 (((cfg2.win 3).blk t).view.emb (ix2 (0 : Fin 1) e)) = _
  refine congrArg (V c main_v37) ?_
  funext a; apply Fin.ext
  match a with
  | ⟨0, _⟩ => show win2_3.index t (0 : Fin 2) * 1 + 1 * 0 = 0; omega
  | ⟨1, _⟩ => show win2_3.index t (1 : Fin 2) * 128 + 1 * e.val = e.val; omega

/-- The residual block at `(p, e)` is the input features at the output block's row for `p`, column `e`. -/
theorem read_resid (c : Dev nD) (t : Fin cfg2.N) (p : Fin 2000) (q e : Fin 128) :
    iblk2 V c 4 t (ix2 p e) = V c main_arg0 (ix2 ((((cfg2.win 5).blk t).view.emb (ix2 p q)) 0) e) := by
  have hf := idx_facts t
  show V c main_arg0 (((cfg2.win 4).blk t).view.emb (ix2 p e)) = _
  refine congrArg (V c main_arg0) ?_
  funext a; apply Fin.ext
  match a with
  | ⟨0, _⟩ => show win2_4.index t (0 : Fin 2) * 2000 + 1 * p.val = win2_5.index t (0 : Fin 2) * 2000 + 1 * p.val; omega
  | ⟨1, _⟩ => show win2_4.index t (1 : Fin 2) * 128 + 1 * e.val = e.val; omega

/-- An index of the array is `ix2` of its coordinates (the output block's index, as the row reads above spell it). -/
theorem emb_eta (t : Fin cfg2.N) (p : Fin 2000) (q : Fin 128) :
    (((cfg2.win 5).blk t).view.emb (ix2 p q)) = ix2 ((((cfg2.win 5).blk t).view.emb (ix2 p q)) 0) q := by
  have hf := idx_facts t
  funext a; apply Fin.ext
  match a with
  | ⟨0, _⟩ => rfl
  | ⟨1, _⟩ => show win2_5.index t (1 : Fin 2) * 128 + 1 * q.val = q.val; omega

/-! ## What a point writes back -/

/-- The result, as a function of the arrays the region finds. -/
abbrev result (c : Dev nD) : S50000x128.Idx → EReal :=
  GraphConv.relu (fun i => GraphConv.layerOnce (Region0.colVec (V c main_v11)) (V c main_v36) (V c main_v25_0)
    (Region1.rowVec (V c main_v37)) i + V c main_arg0 i)

/-- Point `t` writes back block `t` of the result. -/
theorem flushed_result (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S2000x128) hz, View.ld_unit_zero (S := S2000x1) hz, View.ld_unit_zero (S := S1x128) hz]
  funext j
  obtain ⟨p, q, rfl⟩ : ∃ (p : Fin 2000) (q : Fin 128), j = ix2 p q := ⟨j 0, j 1, eq_ix2 j⟩
  show k2_pay1 (F := Ideal) (iblk2 V c 2 t) (iblk2 V c 0 t) (iblk2 V c 1 t) (iblk2 V c 3 t) (iblk2 V c 4 t) (ix2 p q)
    = result V c (((cfg2.win 5).blk t).view.emb (ix2 p q))
  refine (Bodies.body2_stored _ _ _ _ _ p q).trans ?_
  rw [read_col V c t p q, read_agg V c t p q q, read_feat V c t p q q, read_bias V c t q, read_resid V c t p q q]
  conv_rhs => rw [emb_eta t p q]
  rfl

/-! ## The blocks cover the array -/

theorem mem_blk5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v38).slice (win2_5.rect t)).set ↔ _
  rw [View.set_slice_whole, Rect.mem_set_unit]
  exact Iff.rfl

theorem cover5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 2000, by omega⟩
  have hf := idx_facts t
  have q0 : win2_5.index t (0 : Fin 2) = (i 0).val / 2000 := congrFun ht 0
  refine ⟨t, flush2_5 t, ?_⟩
  rw [mem_blk5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-! ## The array after the region -/

/-- The output array after the region. -/
theorem result_array (c : Dev nD) : (dat2 V c).arrAt 5 cfg2.N = result V c :=
  (dat2 V c).arrAt_eq_of_cover 5 _ (fun t _ => flushed_result V c t) cover5

end Cert.KernelIdeal.Region2

end
-- ==== Proof.KernelChain.lean ====
/-
  The buffer contents at each boundary of the kernel's run, as functions of the six argument arrays.

  Reading the fold through the six segments: the first stretch of host operations splits the edge list into its
  source and target vectors and computes the node-weight column (the inverse square root of one plus the number of
  edges landing on each node); region 0 writes the layer-one features and their row-scaled copy; the second stretch
  gathers the scaled features along the sources and sums them onto the targets; region 1 writes the layer-two
  features and their row-scaled copy; the third stretch aggregates again; region 2 writes the result. A stretch
  leaves alone every buffer it does not write, and a region every buffer but its output arrays.
-/
import proofs.«171717_j25975962206483_2_alg».proof.Proof.Gen.KernelIdeal.Frame
import proofs.«171717_j25975962206483_2_alg».proof.Proof.KernelRegion0
import proofs.«171717_j25975962206483_2_alg».proof.Proof.KernelRegion1
import proofs.«171717_j25975962206483_2_alg».proof.Proof.KernelRegion2
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat Cfg Window)

/-! ## The host-side terms -/

abbrev EdgeList : Type := (⟨S2x800000, .i32⟩ : BufTy).Contents (Elt Ideal)
abbrev EdgeVec : Type := (⟨S800000, .i32⟩ : BufTy).Contents (Elt Ideal)
abbrev Bias : Type := (⟨S128, .f32⟩ : BufTy).Contents (Elt Ideal)

/-- The edges' sources: row 0 of the edge list. -/
def srcVec (a1 : EdgeList) : EdgeVec :=
  shapeCast S800000 (extractStridedSlice S1x800000 ![0, 0] a1 slices_S2x800000_S1x800000_0_0) shapeCasts_S1x800000_S800000
/-- The edges' targets: row 1 of the edge list. -/
def dstVec (a1 : EdgeList) : EdgeVec :=
  shapeCast S800000 (extractStridedSlice S1x800000 ![1, 0] a1 slices_S2x800000_S1x800000_1_0) shapeCasts_S1x800000_S800000
/-- A negative index counted from the end: 50000 is added to it. -/
def wrap (v : EdgeVec) : EdgeVec :=
  select (cmpi .slt v (broadcastInDim S800000 ![] bcast_S_S800000 (constantI S_ 32 0#32)))
    (addi v (broadcastInDim S800000 ![] bcast_S_S800000 (constantI S_ 32 50000#32))) v
/-- An index vector as a column of start indices. -/
def colOf (v : EdgeVec) : IVec S800000x1 32 := broadcastInDim S800000x1 ![0] bcast_S800000_S800000x1_0 v
/-- The node weights: the inverse square root of one plus the number of edges landing on each node. -/
def degInv (a1 : EdgeList) : FVec Ideal S50000 .f32 :=
  Host.rsqrt (addf (Host.scatterAdd scatter_S50000_S800000x1_S800000_n_0_0_1
      (broadcastInDim S50000 ![] bcast_S_S50000 (constant (F := Ideal) S_ .f32 0x00000000#32)) (colOf (dstVec a1))
      (broadcastInDim S800000 ![] bcast_S_S800000 (constant (F := Ideal) S_ .f32 0x3F800000#32)))
    (broadcastInDim S50000 ![] bcast_S_S50000 (constant (F := Ideal) S_ .f32 0x3F800000#32)))
/-- The node weights as a column. -/
def degCol (a1 : EdgeList) : FVec Ideal S50000x1 .f32 := shapeCast S50000x1 (degInv a1) shapeCasts_S50000_S50000x1
/-- The aggregate: the rows of `hs` gathered along the (wrapped) sources, summed onto the targets. -/
def aggHost (dst src : EdgeVec) (hs : FVec Ideal S50000x128 .bf16) : FVec Ideal S50000x128 .f32 :=
  Host.scatterAdd scatter_S50000x128_S800000x1_S800000x128_1_0_0_1
    (broadcastInDim S50000x128 ![] bcast_S_S50000x128 (constant (F := Ideal) S_ .f32 0x00000000#32)) (colOf dst)
    (extf .f32 (Host.gather gather_S50000x128_S800000x1_S800000x128_1_0_n_n_0_1_1128 hs (colOf (wrap src))) bitsLt_bf16_f32)
/-- A bias vector as a row. -/
def biasRow (b : Bias) : FVec Ideal S1x128 .f32 := shapeCast S1x128 b shapeCasts_S128_S1x128

variable (m : (ℓ : Loc nD τ sig) → Buf (Elt Ideal) ℓ) (ρ : Dev nD → PrngReg)

/-- A stretch of host operations leaves a buffer it does not write as it was. -/
macro "host_keeps " ops:ident x:ident : tactic => `(tactic| (
  refine StableHlo.after_of_forall_not_mem (b := Proc.devRef .tc $x) _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The argument arrays at the boundaries where something reads them -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-! ## Boundary 1: after the first stretch -/

theorem W1_src (c : Dev nD) : W1 m ρ c (Proc.devRef .tc main_v1) = srcVec (m ((c : Thread nD τ).loc main_arg1)) := by
  show StableHlo.after hostOps0 (W0 m ρ c) (Proc.devRef .tc main_v1) = _
  after_results
  rfl
theorem W1_dst (c : Dev nD) : W1 m ρ c (Proc.devRef .tc main_v3) = dstVec (m ((c : Thread nD τ).loc main_arg1)) := by
  show StableHlo.after hostOps0 (W0 m ρ c) (Proc.devRef .tc main_v3) = _
  after_results
  rfl
theorem W1_col (c : Dev nD) : W1 m ρ c (Proc.devRef .tc main_v11) = degCol (m ((c : Thread nD τ).loc main_arg1)) := by
  show StableHlo.after hostOps0 (W0 m ρ c) (Proc.devRef .tc main_v11) = _
  after_results
  rfl

/-! ## Boundary 2: after region 0 -/

theorem W2_src (c : Dev nD) : W2 m ρ c (Proc.devRef .tc main_v1) = srcVec (m ((c : Thread nD τ).loc main_arg1)) :=
  (W2_of_ne m ρ c main_v1 (by decide)).trans (W1_src m ρ c)
theorem W2_dst (c : Dev nD) : W2 m ρ c (Proc.devRef .tc main_v3) = dstVec (m ((c : Thread nD τ).loc main_arg1)) :=
  (W2_of_ne m ρ c main_v3 (by decide)).trans (W1_dst m ρ c)
theorem W2_col (c : Dev nD) : W2 m ρ c (Proc.devRef .tc main_v11) = degCol (m ((c : Thread nD τ).loc main_arg1)) :=
  ((W2_arr m ρ c 2).trans (((dat0 (V1 m ρ) c).arrAt_in 2 rfl _).trans (A_eq0 (V1 m ρ) c 2))).trans (W1_col m ρ c)

/-- The layer-one features: the input features times the first weights. -/
abbrev feat1 (c : Dev nD) : S50000x128.Idx → EReal :=
  GraphConv.transform (m ((c : Thread nD τ).loc main_arg0)) (m ((c : Thread nD τ).loc main_arg2))
/-- The node weights as a vector. -/
abbrev weight (c : Dev nD) : GraphConv.Nodes.Idx → EReal := Region0.colVec (degCol (m ((c : Thread nD τ).loc main_arg1)))

theorem V1_arg0 (c : Dev nD) : V1 m ρ c main_arg0 = m ((c : Thread nD τ).loc main_arg0) := W1_main_arg0 m ρ c
theorem V1_arg2 (c : Dev nD) : V1 m ρ c main_arg2 = m ((c : Thread nD τ).loc main_arg2) := W1_main_arg2 m ρ c
theorem V1_col (c : Dev nD) : V1 m ρ c main_v11 = degCol (m ((c : Thread nD τ).loc main_arg1)) := W1_col m ρ c

theorem W2_feat (c : Dev nD) : W2 m ρ c (Proc.devRef .tc main_v12_0) = feat1 m c := by
  refine (W2_arr m ρ c 3).trans ((Region0.product_array (V1 m ρ) c).trans ?_)
  rw [V1_arg0, V1_arg2]
theorem W2_scaled (c : Dev nD) :
    W2 m ρ c (Proc.devRef .tc main_v12_1) = GraphConv.scaleRows (feat1 m c) (weight m c) := by
  refine (W2_arr m ρ c 4).trans ((Region0.scaled_array (V1 m ρ) c).trans ?_)
  rw [V1_arg0, V1_arg2, V1_col]

/-! ## Boundary 3: after the second stretch -/

theorem W3_src (c : Dev nD) : W3 m ρ c (Proc.devRef .tc main_v1) = srcVec (m ((c : Thread nD τ).loc main_arg1)) :=
  (by host_keeps hostOps1 main_v1 : W3 m ρ c (Proc.devRef .tc main_v1) = W2 m ρ c (Proc.devRef .tc main_v1)).trans (W2_src m ρ c)
theorem W3_dst (c : Dev nD) : W3 m ρ c (Proc.devRef .tc main_v3) = dstVec (m ((c : Thread nD τ).loc main_arg1)) :=
  (by host_keeps hostOps1 main_v3 : W3 m ρ c (Proc.devRef .tc main_v3) = W2 m ρ c (Proc.devRef .tc main_v3)).trans (W2_dst m ρ c)
theorem V3_col (c : Dev nD) : V3 m ρ c main_v11 = degCol (m ((c : Thread nD τ).loc main_arg1)) :=
  (by host_keeps hostOps1 main_v11 : W3 m ρ c (Proc.devRef .tc main_v11) = W2 m ρ c (Proc.devRef .tc main_v11)).trans (W2_col m ρ c)
theorem V3_feat (c : Dev nD) : V3 m ρ c main_v12_0 = feat1 m c :=
  (by host_keeps hostOps1 main_v12_0 : W3 m ρ c (Proc.devRef .tc main_v12_0) = W2 m ρ c (Proc.devRef .tc main_v12_0)).trans (W2_feat m ρ c)
theorem V3_arg4 (c : Dev nD) : V3 m ρ c main_arg4 = m ((c : Thread nD τ).loc main_arg4) := W3_main_arg4 m ρ c

/-- The layer-one aggregate. -/
abbrev agg1 (c : Dev nD) : S50000x128.Idx → EReal :=
  aggHost (dstVec (m ((c : Thread nD τ).loc main_arg1))) (srcVec (m ((c : Thread nD τ).loc main_arg1)))
    (GraphConv.scaleRows (feat1 m c) (weight m c))

theorem V3_agg (c : Dev nD) : V3 m ρ c main_v23 = agg1 m c := by
  have h : W3 m ρ c (Proc.devRef .tc main_v23) = aggHost (W2 m ρ c (Proc.devRef .tc main_v3))
      (W2 m ρ c (Proc.devRef .tc main_v1)) (W2 m ρ c (Proc.devRef .tc main_v12_1)) := by
    show StableHlo.after hostOps1 (W2 m ρ c) (Proc.devRef .tc main_v23) = _
    after_results
    rfl
  refine h.trans ?_
  rw [W2_dst, W2_src, W2_scaled]
theorem V3_bias (c : Dev nD) : V3 m ρ c main_v24 = biasRow (m ((c : Thread nD τ).loc main_arg3)) := by
  have h : W3 m ρ c (Proc.devRef .tc main_v24) = biasRow (W2 m ρ c (Proc.devRef .tc main_arg3)) := by
    show StableHlo.after hostOps1 (W2 m ρ c) (Proc.devRef .tc main_v24) = _
    after_results
    rfl
  refine h.trans ?_
  rw [W2_main_arg3]

/-! ## Boundary 4: after region 1 -/

/-- The rectified layer-one output. -/
abbrev hidden1 (c : Dev nD) : S50000x128.Idx → EReal :=
  GraphConv.relu (GraphConv.layerOnce (weight m c) (agg1 m c) (feat1 m c)
    (Region1.rowVec (biasRow (m ((c : Thread nD τ).loc main_arg3)))))
/-- The layer-two features. -/
abbrev feat2 (c : Dev nD) : S50000x128.Idx → EReal :=
  GraphConv.transform (hidden1 m c) (m ((c : Thread nD τ).loc main_arg4))

theorem hidden_eq (c : Dev nD) : Region1.hidden (V3 m ρ) c = hidden1 m c := by
  show GraphConv.relu (GraphConv.layerOnce (Region0.colVec (V3 m ρ c main_v11)) (V3 m ρ c main_v23) (V3 m ρ c main_v12_0)
    (Region1.rowVec (V3 m ρ c main_v24))) = _
  rw [V3_col, V3_agg, V3_feat, V3_bias]

theorem W4_feat (c : Dev nD) : W4 m ρ c (Proc.devRef .tc main_v25_0) = feat2 m c := by
  refine (W4_arr m ρ c 5).trans ((Region1.product_array (V3 m ρ) c).trans ?_)
  rw [hidden_eq, V3_arg4]
theorem W4_scaled (c : Dev nD) :
    W4 m ρ c (Proc.devRef .tc main_v25_1) = GraphConv.scaleRows (feat2 m c) (weight m c) := by
  refine (W4_arr m ρ c 6).trans ((Region1.scaled_array (V3 m ρ) c).trans ?_)
  rw [hidden_eq, V3_arg4, V3_col]
theorem W4_src (c : Dev nD) : W4 m ρ c (Proc.devRef .tc main_v1) = srcVec (m ((c : Thread nD τ).loc main_arg1)) :=
  (W4_of_ne m ρ c main_v1 (by decide)).trans (W3_src m ρ c)
theorem W4_dst (c : Dev nD) : W4 m ρ c (Proc.devRef .tc main_v3) = dstVec (m ((c : Thread nD τ).loc main_arg1)) :=
  (W4_of_ne m ρ c main_v3 (by decide)).trans (W3_dst m ρ c)
theorem W4_col (c : Dev nD) : W4 m ρ c (Proc.devRef .tc main_v11) = degCol (m ((c : Thread nD τ).loc main_arg1)) :=
  ((W4_arr m ρ c 2).trans (((dat1 (V3 m ρ) c).arrAt_in 2 rfl _).trans (A_eq1 (V3 m ρ) c 2))).trans (V3_col m ρ c)

/-! ## Boundary 5: after the third stretch -/

theorem V5_col (c : Dev nD) : V5 m ρ c main_v11 = degCol (m ((c : Thread nD τ).loc main_arg1)) :=
  (by host_keeps hostOps2 main_v11 : W5 m ρ c (Proc.devRef .tc main_v11) = W4 m ρ c (Proc.devRef .tc main_v11)).trans (W4_col m ρ c)
theorem V5_feat (c : Dev nD) : V5 m ρ c main_v25_0 = feat2 m c :=
  (by host_keeps hostOps2 main_v25_0 : W5 m ρ c (Proc.devRef .tc main_v25_0) = W4 m ρ c (Proc.devRef .tc main_v25_0)).trans (W4_feat m ρ c)
theorem V5_arg0 (c : Dev nD) : V5 m ρ c main_arg0 = m ((c : Thread nD τ).loc main_arg0) := W5_main_arg0 m ρ c

/-- The layer-two aggregate. -/
abbrev agg2 (c : Dev nD) : S50000x128.Idx → EReal :=
  aggHost (dstVec (m ((c : Thread nD τ).loc main_arg1))) (srcVec (m ((c : Thread nD τ).loc main_arg1)))
    (GraphConv.scaleRows (feat2 m c) (weight m c))

theorem V5_agg (c : Dev nD) : V5 m ρ c main_v36 = agg2 m c := by
  have h : W5 m ρ c (Proc.devRef .tc main_v36) = aggHost (W4 m ρ c (Proc.devRef .tc main_v3))
      (W4 m ρ c (Proc.devRef .tc main_v1)) (W4 m ρ c (Proc.devRef .tc main_v25_1)) := by
    show StableHlo.after hostOps2 (W4 m ρ c) (Proc.devRef .tc main_v36) = _
    after_results
    rfl
  refine h.trans ?_
  rw [W4_dst, W4_src, W4_scaled]
theorem V5_bias (c : Dev nD) : V5 m ρ c main_v37 = biasRow (m ((c : Thread nD τ).loc main_arg5)) := by
  have h : W5 m ρ c (Proc.devRef .tc main_v37) = biasRow (W4 m ρ c (Proc.devRef .tc main_arg5)) := by
    show StableHlo.after hostOps2 (W4 m ρ c) (Proc.devRef .tc main_v37) = _
    after_results
    rfl
  refine h.trans ?_
  rw [W4_main_arg5]

/-! ## Boundary 6: the result -/

/-- The kernel's result array as one function of the six argument arrays. -/
abbrev kernelOut (c : Dev nD) : S50000x128.Idx → EReal :=
  GraphConv.relu (fun i => GraphConv.layerOnce (weight m c) (agg2 m c) (feat2 m c)
    (Region1.rowVec (biasRow (m ((c : Thread nD τ).loc main_arg5)))) i + m ((c : Thread nD τ).loc main_arg0) i)

/-- After the third region the result array holds `kernelOut`. -/
theorem W6_result (c : Dev nD) : W6 m ρ c (Proc.devRef .tc main_v38) = kernelOut m c := by
  refine (W6_arr m ρ c 5).trans ((Region2.result_array (V5 m ρ) c).trans ?_)
  show GraphConv.relu (fun i => GraphConv.layerOnce (Region0.colVec (V5 m ρ c main_v11)) (V5 m ρ c main_v36)
    (V5 m ρ c main_v25_0) (Region1.rowVec (V5 m ρ c main_v37)) i + V5 m ρ c main_arg0 i) = _
  rw [V5_col, V5_agg, V5_feat, V5_bias, V5_arg0]

end Cert.KernelIdeal.Chain

end
-- ==== Proof.LibBroadcastInDim.lean ====
/-
  Three `broadcast_in_dim` layouts read at an index: general lemmas.

  A column `[a, 1]` sent to `[a, b]` along both axes repeats its one column; a row `[1, b]` sent to `[a, b]` along both
  axes repeats its one row; a vector `[b]` sent to `[1, b]` along axis 1 is the row with the vector's entries.
-/
import Idealize.ShloMosaic.Lib.Pipeline.Value
import Idealize.ShloMosaic.Lib.ValueIdx

namespace BroadcastRead

open Idealize.ShloMosaic Idealize.ShloMosaic.ValueIdx

/-- A column `[a, 1]` broadcast to `[a, b]` reads, at `(p, q)`, the column at row `p`. -/
theorem column_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row at column `q`. -/
theorem row_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` broadcast to the row `[1, b]` along axis 1 reads, at `(u, q)`, the vector at `q`. -/
theorem vector_row_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end BroadcastRead
-- ==== Proof.LibVectorColumn.lean ====
/-
  A vector made into a column, two ways: a general layout lemma.

  An `[a]` array becomes an `[a, 1]` column either by a shape cast (row-major order kept) or by a broadcast that sends
  its one axis to axis 0. Either way the entry at `(p, 0)` is the vector's entry at `p`, so the two columns are the
  same array.
-/
import Idealize.ShloMosaic.Lib.Pipeline.Value
import Idealize.ShloMosaic.Lib.ValueIdx

namespace Cert.LibVectorColumn

open Idealize.ShloMosaic Idealize.ShloMosaic.ValueIdx

/-- An `[a]` array shape-cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a]` array broadcast to `[a, 1]` along axis 0 reads, at `(p, u)`, the operand at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The shape-cast column and the broadcast column of one vector are the same array. -/
theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.LibVectorColumn
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«171717_j25975962206483_2_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.ReferenceValue.lean ====
/-
  The reference's result as one function of its six arguments.

  The reference computes each layer as `agg + h * (d * d) + b`, where the aggregate sums, over the edges landing on a
  node, the source's features times the product of the two node weights gathered per edge. Its program spells the
  per-edge weights and the per-node terms through chains of broadcasts; read at an index those are the plain entries,
  so the layer as spelled is the "scale each message" arrangement. The second layer recomputes the node weights and
  the wrapped index columns; they are the same terms as the first layer's.
-/
import proofs.«171717_j25975962206483_2_alg».proof.Proof.Gen.ReferenceIdeal.Read
import proofs.«171717_j25975962206483_2_alg».proof.Proof.GraphConv
import proofs.«171717_j25975962206483_2_alg».proof.Proof.LibBroadcastInDim
import proofs.«171717_j25975962206483_2_alg».proof.Proof.LibVectorColumn
import proofs.«171717_j25975962206483_2_alg».proof.Proof.LibDotNN

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem RowIndex

/-- One layer as the reference spells it: the weights `d`, the features `h`, the bias `b`, the wrapped source column
    (once for the weights, once for the features), the wrapped target column and the raw target column. -/
def refLayer (d : FVec Ideal S50000 .f32) (h : FVec Ideal S50000x128 .f32) (b : FVec Ideal S128 .f32)
    (isrc isrcH idstW idst : IVec S800000x1 32) : FVec Ideal S50000x128 .f32 :=
  addf (addf
    (Host.scatterAdd scatter_S50000x128_S800000x1_S800000x128_1_0_0_1
      (broadcastInDim S50000x128 ![] bcast_S_S50000x128 (constant (F := Ideal) S_ .f32 0x00000000#32)) idst
      (mulf (Host.gather gather_S50000x128_S800000x1_S800000x128_1_0_n_n_0_1_1128 h isrcH)
        (broadcastInDim S800000x128 ![0, 1] bcast_S800000x1_S800000x128_0_1
          (broadcastInDim S800000x1 ![0] bcast_S800000_S800000x1_0
            (mulf (Host.gather gather_S50000_S800000x1_S800000_n_0_n_n_0_1_1 d isrc)
              (Host.gather gather_S50000_S800000x1_S800000_n_0_n_n_0_1_1 d idstW))))))
    (mulf h (broadcastInDim S50000x128 ![0, 1] bcast_S50000x1_S50000x128_0_1
      (broadcastInDim S50000x1 ![0] bcast_S50000_S50000x1_0 (mulf d d)))))
    (broadcastInDim S50000x128 ![0, 1] bcast_S1x128_S50000x128_0_1 (broadcastInDim S1x128 ![1] bcast_S128_S1x128_1 b))

/-! ## The broadcast chains, read at an index -/

/-- The per-edge coefficient, broadcast over the features: at `(e, k)` it is the product of the two gathered weights
    at edge `e`. -/
theorem edge_coeff_apply (g1 g2 : FVec Ideal S800000 .f32) (e : Fin 800000) (k : Fin 128) :
    broadcastInDim S800000x128 ![0, 1] bcast_S800000x1_S800000x128_0_1
      (broadcastInDim S800000x1 ![0] bcast_S800000_S800000x1_0 (mulf g1 g2)) (ix2 e k) = g1 (ix1 e) * g2 (ix1 e) := by
  rw [BroadcastRead.column_apply, Cert.LibVectorColumn.broadcastInDim_a_a1_apply]
  rfl

/-- A per-node value broadcast over the features: at `(n, k)` it is the value at node `n`. -/
theorem node_coeff_apply (v : FVec Ideal S50000 .f32) (n : Fin 50000) (k : Fin 128) :
    broadcastInDim S50000x128 ![0, 1] bcast_S50000x1_S50000x128_0_1
      (broadcastInDim S50000x1 ![0] bcast_S50000_S50000x1_0 v) (ix2 n k) = v (ix1 n) := by
  rw [BroadcastRead.column_apply, Cert.LibVectorColumn.broadcastInDim_a_a1_apply]

/-- The bias broadcast over the nodes: at `(n, k)` it is the bias at feature `k`. -/
theorem bias_apply (b : FVec Ideal S128 .f32) (n : Fin 50000) (k : Fin 128) :
    broadcastInDim S50000x128 ![0, 1] bcast_S1x128_S50000x128_0_1 (broadcastInDim S1x128 ![1] bcast_S128_S1x128_1 b) (ix2 n k)
      = b (ix1 k) := by
  rw [BroadcastRead.row_apply, BroadcastRead.vector_row_apply]

/-- The program's dimension numbers are the generic row-gather, entry-gather and row-scatter ones. -/
theorem rows_dims : gather_S50000x128_S800000x1_S800000x128_1_0_n_n_0_1_1128
    = takeRows 50000 800000 128 gather_S50000x128_S800000x1_S800000x128_1_0_n_n_0_1_1128_wf := rfl
theorem entries_dims : gather_S50000_S800000x1_S800000_n_0_n_n_0_1_1
    = takeEntries 50000 800000 gather_S50000_S800000x1_S800000_n_0_n_n_0_1_1_wf := rfl
theorem put_dims : scatter_S50000x128_S800000x1_S800000x128_1_0_0_1
    = putRows 50000 800000 128 scatter_S50000x128_S800000x1_S800000x128_1_0_0_1_wf := rfl

/-- The messages as the reference spells them, edge by edge. -/
theorem messages_eq (H : FVec Ideal S800000x128 .f32) (g1 g2 : FVec Ideal S800000 .f32) :
    mulf H (broadcastInDim S800000x128 ![0, 1] bcast_S800000x1_S800000x128_0_1
        (broadcastInDim S800000x1 ![0] bcast_S800000_S800000x1_0 (mulf g1 g2)))
      = fun u => H u * (g1 (ix1 (u 0)) * g2 (ix1 (u 0))) := by
  funext u
  obtain ⟨e, k, rfl⟩ : ∃ (e : Fin 800000) (k : Fin 128), u = ix2 e k := ⟨u 0, u 1, eq_ix2 u⟩
  rw [mulf_apply, edge_coeff_apply]

/-- The scatter's operand: the zero word everywhere. -/
theorem zero_operand : broadcastInDim S50000x128 ![] bcast_S_S50000x128 (constant (F := Ideal) S_ .f32 0x00000000#32)
    = fun _ => GraphConv.zeroF := rfl

/-- The layer as spelled is the "scale each message" arrangement. -/
theorem refLayer_eq (d : FVec Ideal S50000 .f32) (h : FVec Ideal S50000x128 .f32) (b : FVec Ideal S128 .f32)
    (isrc idstW idst : IVec S800000x1 32) :
    refLayer d h b isrc isrc idstW idst
      = GraphConv.layerEach d (GraphConv.aggEach gather_S50000x128_S800000x1_S800000x128_1_0_n_n_0_1_1128_wf
          gather_S50000_S800000x1_S800000_n_0_n_n_0_1_1_wf scatter_S50000x128_S800000x1_S800000x128_1_0_0_1_wf
          d h isrc idst idstW) h b := by
  unfold refLayer GraphConv.aggEach
  rw [rows_dims, entries_dims, put_dims, zero_operand]
  generalize Host.gather (takeRows 50000 800000 128 gather_S50000x128_S800000x1_S800000x128_1_0_n_n_0_1_1128_wf) h isrc = H
  generalize Host.gather (takeEntries 50000 800000 gather_S50000_S800000x1_S800000_n_0_n_n_0_1_1_wf) d isrc = g1
  generalize Host.gather (takeEntries 50000 800000 gather_S50000_S800000x1_S800000_n_0_n_n_0_1_1_wf) d idstW = g2
  rw [messages_eq H g1 g2]
  generalize (fun u : S800000x128.Idx => H u * (g1 (ix1 (u 0)) * g2 (ix1 (u 0)))) = U
  unfold Host.scatterAdd
  rw [Ideal.hostScatterAdd_def]
  generalize Ideal.hostScatterAdd (putRows 50000 800000 128 scatter_S50000x128_S800000x1_S800000x128_1_0_0_1_wf)
    (fun _ => GraphConv.zeroF) idst U = A
  funext i
  obtain ⟨n, k, rfl⟩ : ∃ (n : Fin 50000) (k : Fin 128), i = ix2 n k := ⟨i 0, i 1, eq_ix2 i⟩
  unfold GraphConv.layerEach
  rw [addf_apply, addf_apply, mulf_apply, node_coeff_apply, bias_apply, mulf_apply]

/-! ## The reference's stages are that layer -/

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal))

/-- Layer one before the rectifier. -/
theorem layer1_eq : val_main_v47 (F := Ideal) x0 x1 x2 x3
    = refLayer (val_main_v11 (F := Ideal) x1) (val_main_v4 (F := Ideal) x0 x2) x3 (val_main_v17 (F := Ideal) x1)
        (val_main_v32 (F := Ideal) x1) (val_main_v24 (F := Ideal) x1) (val_main_v38 (F := Ideal) x1) := rfl

/-- Layer two before the bias-and-residual tail's last sum. -/
theorem layer2_eq : val_main_v92 (F := Ideal) x0 x1 x2 x3 x4 x5
    = refLayer (val_main_v56 (F := Ideal) x1) (val_main_v49 (F := Ideal) x0 x1 x2 x3 x4) x5 (val_main_v62 (F := Ideal) x1)
        (val_main_v77 (F := Ideal) x1) (val_main_v69 (F := Ideal) x1) (val_main_v83 (F := Ideal) x1) := rfl

/-- The recomputed weights and index columns are the first layer's. -/
theorem weights_again : val_main_v56 (F := Ideal) x1 = val_main_v11 (F := Ideal) x1 := rfl
theorem src_again_32 : val_main_v32 (F := Ideal) x1 = val_main_v17 (F := Ideal) x1 := rfl
theorem src_again_62 : val_main_v62 (F := Ideal) x1 = val_main_v17 (F := Ideal) x1 := rfl
theorem src_again_77 : val_main_v77 (F := Ideal) x1 = val_main_v17 (F := Ideal) x1 := rfl
theorem tgt_again_69 : val_main_v69 (F := Ideal) x1 = val_main_v24 (F := Ideal) x1 := rfl
theorem tgt_again_83 : val_main_v83 (F := Ideal) x1 = val_main_v38 (F := Ideal) x1 := rfl

/-- A host matrix product of node features with 128 x 128 weights is `transform`. -/
theorem dot_eq_transform (x : FVec Ideal S50000x128 .f32) (w : FVec Ideal S128x128 .f32) :
    Host.dotGeneral dot_S50000x128_S128x128_S50000x128_1_0_0_1_n_n none x w = GraphConv.transform x w := by
  funext i
  obtain ⟨p, q, rfl⟩ : ∃ (p : Fin 50000) (q : Fin 128), i = ix2 p q := ⟨i 0, i 1, eq_ix2 i⟩
  exact Cert.LibDotNN.dotGeneral_apply (M := 50000) (N := 128) (K := 128)
    dot_S50000x128_S128x128_S50000x128_1_0_0_1_n_n_wf none .single x w p q

/-- The rectifier as the reference calls it, at either call. -/
theorem relu_call0 (v : FVec Ideal S50000x128 .f32) : maximumf v (val_main_call0_v0 (F := Ideal)) = GraphConv.relu v := rfl
theorem relu_call1 (v : FVec Ideal S50000x128 .f32) : maximumf v (val_main_call1_v0 (F := Ideal)) = GraphConv.relu v := rfl

/-- The "scale each message" layer over the reference's own weights and index columns. -/
abbrev layerOf (h : FVec Ideal S50000x128 .f32) (b : FVec Ideal S128 .f32) : S50000x128.Idx → EReal :=
  GraphConv.layerEach (val_main_v11 (F := Ideal) x1)
    (GraphConv.aggEach gather_S50000x128_S800000x1_S800000x128_1_0_n_n_0_1_1128_wf
      gather_S50000_S800000x1_S800000_n_0_n_n_0_1_1_wf scatter_S50000x128_S800000x1_S800000x128_1_0_0_1_wf
      (val_main_v11 (F := Ideal) x1) h (val_main_v17 (F := Ideal) x1) (val_main_v38 (F := Ideal) x1)
      (val_main_v24 (F := Ideal) x1)) h b

/-- The reference's layer-two features. -/
abbrev feat2 : S50000x128.Idx → EReal :=
  GraphConv.transform (GraphConv.relu (layerOf x1 (GraphConv.transform x0 x2) x3)) x4

/-- THE REFERENCE'S RESULT: rectified layer two over the layer-two features, plus the input features. -/
theorem result_eq : val_main_v94 (F := Ideal) x0 x1 x2 x3 x4 x5
    = GraphConv.relu (fun i => layerOf x1 (feat2 x0 x1 x2 x3 x4) x5 i + x0 i) := by
  have h4 : val_main_v4 (F := Ideal) x0 x2 = GraphConv.transform x0 x2 := by
    unfold val_main_v4
    exact dot_eq_transform x0 x2
  have h48 : val_main_v48 (F := Ideal) x0 x1 x2 x3 = GraphConv.relu (layerOf x1 (GraphConv.transform x0 x2) x3) := by
    unfold val_main_v48
    rw [layer1_eq, src_again_32, refLayer_eq, relu_call0, h4]
  have h49 : val_main_v49 (F := Ideal) x0 x1 x2 x3 x4 = feat2 x0 x1 x2 x3 x4 := by
    unfold val_main_v49
    rw [dot_eq_transform, h48]
  unfold val_main_v94 val_main_v93
  rw [layer2_eq, weights_again, src_again_62, src_again_77, tgt_again_69, tgt_again_83, refLayer_eq, relu_call1, h49]
  rfl

end Cert.ReferenceIdeal.RefValue

end
-- ==== Proof.Bridge.lean ====
/-
  The kernel's result and the reference's result are one function of the six arguments.

  Both apply, twice, a layer over the same node weights, the same wrapped source column and the same raw target
  column. The kernel scales each node's features once and multiplies the aggregate by the node's weight afterwards;
  the reference scales every message by both weights. The aggregation law joins them, given that the weights are
  nonnegative and finite (the inverse square root of a count plus one) and that the wrapped target column reads the
  landing row wherever an edge lands (a landing row is a nonnegative index, which the wrap and the clamp leave alone).
-/
import proofs.«171717_j25975962206483_2_alg».proof.Proof.KernelChain
import proofs.«171717_j25975962206483_2_alg».proof.Proof.ReferenceValue
import Idealize.ShloMosaic.Lib.ValueLayout

noncomputable section

namespace Cert.Bridge

open Cert.KernelIdeal Cert.ReferenceIdeal.Read Cert.ReferenceIdeal.RefValue
open Idealize.ShloMosaic Idealize.ShloMosaic.ValueIdx Idealize.SL.Sem RowIndex

abbrev EdgeList : Type := Chain.EdgeList
abbrev Features : Type := (⟨Cert.KernelIdeal.S50000x128, .f32⟩ : BufTy).Contents (Elt Ideal)
abbrev Weights : Type := (⟨Cert.KernelIdeal.S128x128, .f32⟩ : BufTy).Contents (Elt Ideal)
abbrev Bias : Type := Chain.Bias

/-! ## The shared pieces -/

/-- The kernel's node-weight column, as a vector, is the reference's weight vector. -/
theorem weights_eq (a1 : EdgeList) : Region0.colVec (Chain.degCol a1) = val_main_v11 (F := Ideal) a1 := by
  funext n
  obtain ⟨p, rfl⟩ : ∃ p : Fin 50000, n = ix1 p := ⟨n 0, eq_ix1 n⟩
  have hfun : Chain.degInv a1 = val_main_v11 (F := Ideal) a1 := rfl
  show Chain.degCol a1 (ix2 p (0 : Fin 1)) = _
  unfold Chain.degCol
  rw [Cert.LibVectorColumn.shapeCast_a_a1_apply, hfun]

/-- A bias vector made a row and read back as a vector is itself. -/
theorem bias_eq (b : Bias) : Region1.rowVec (Chain.biasRow b) = b := by
  funext k
  obtain ⟨q, rfl⟩ : ∃ q : Fin 128, k = ix1 q := ⟨k 0, eq_ix1 k⟩
  show Chain.biasRow b (ix2 (0 : Fin 1) q) = _
  unfold Chain.biasRow
  exact shapeCast_a_1a_apply b _ (0 : Fin 1) q

/-- Every node weight is nonnegative and finite: the inverse square root of a count of ones plus one. -/
theorem weights_ok (a1 : EdgeList) (n : GraphConv.Nodes.Idx) :
    0 ≤ val_main_v11 (F := Ideal) a1 n ∧ val_main_v11 (F := Ideal) a1 n ≠ ⊤ := by
  have h8 : val_main_v8 (F := Ideal) a1 = Ideal.hostScatterAdd Cert.ReferenceIdeal.scatter_S50000_S800000x1_S800000_n_0_0_1
      (val_main_v6 (F := Ideal)) (val_main_v7 (F := Ideal) a1) (val_main_v5 (F := Ideal)) := by
    unfold val_main_v8 Host.scatterAdd
    rw [Ideal.hostScatterAdd_def]
  have h6 : val_main_v6 (F := Ideal) = fun _ => GraphConv.zeroF := rfl
  have h5 : val_main_v5 (F := Ideal) = fun _ => GraphConv.oneF := rfl
  rw [val_main_v11_apply, Ideal.hostUnary_rsqrt_def, val_main_v10_apply, Ideal.addf_def, val_main_v9_apply,
    val_main_cst_1_apply, Ideal.ofBits_def, h8, h6, h5]
  unfold Ideal.hostScatterAdd
  exact GraphConv.weight_of_count _

/-- Wherever an edge lands, the wrapped target column, clamped, reads the landing row. -/
theorem link (a1 : EdgeList) (e : Fin 800000) (n : Fin 50000)
    (h : (val_main_v38 (F := Ideal) a1 (colAt e)).toInt = (n.val : ℤ)) :
    clampRow 50000 GraphConv.nodes_pos (val_main_v24 (F := Ideal) a1 (colAt e)) = n := by
  have h38 : val_main_v38 (F := Ideal) a1 (colAt e) = val_main_v3 (F := Ideal) a1 (ix1 e) :=
    Cert.LibVectorColumn.broadcastInDim_a_a1_apply _ _ e 0
  have h24 : val_main_v24 (F := Ideal) a1 (colAt e) = val_main_v23 (F := Ideal) a1 (ix1 e) :=
    Cert.LibVectorColumn.broadcastInDim_a_a1_apply _ _ e 0
  have h23 : val_main_v23 (F := Ideal) a1 (ix1 e)
      = Scalar.select (IntOp.cmpi .slt (val_main_v3 (F := Ideal) a1 (ix1 e)) 0#32)
          (IntOp.addi (val_main_v3 (F := Ideal) a1 (ix1 e)) 50000#32) (val_main_v3 (F := Ideal) a1 (ix1 e)) := rfl
  rw [h38] at h
  rw [h24, h23, GraphConv.wrap_of_nonneg _ (by rw [h]; exact Int.natCast_nonneg _)]
  exact clampRow_of_toInt GraphConv.nodes_pos _ n h

/-! ## One layer -/

/-- The kernel's dimension numbers are the generic row-gather and row-scatter ones. -/
theorem rows_dims : Cert.KernelIdeal.gather_S50000x128_S800000x1_S800000x128_1_0_n_n_0_1_1128
    = takeRows 50000 800000 128 Cert.ReferenceIdeal.Facts₀.gather_S50000x128_S800000x1_S800000x128_1_0_n_n_0_1_1128_wf := rfl
theorem put_dims : Cert.KernelIdeal.scatter_S50000x128_S800000x1_S800000x128_1_0_0_1
    = putRows 50000 800000 128 Cert.ReferenceIdeal.Facts₀.scatter_S50000x128_S800000x1_S800000x128_1_0_0_1_wf := rfl
/-- The kernel's scatter operand: the zero word everywhere. -/
theorem zero_operand : broadcastInDim Cert.KernelIdeal.S50000x128 ![] Cert.KernelIdeal.Facts₀.bcast_S_S50000x128
    (constant (F := Ideal) Cert.KernelIdeal.S_ .f32 0x00000000#32) = fun _ => GraphConv.zeroF := rfl
/-- The kernel's wrapped source column and raw target column are the reference's. -/
theorem src_col_eq (a1 : EdgeList) : Chain.colOf (Chain.wrap (Chain.srcVec a1)) = val_main_v17 (F := Ideal) a1 := rfl
theorem dst_col_eq (a1 : EdgeList) : Chain.colOf (Chain.dstVec a1) = val_main_v38 (F := Ideal) a1 := rfl
/-- Widening a float format is the identity at the exact instance. -/
theorem widen_id (X : FVec Ideal Cert.KernelIdeal.S800000x128 .bf16) :
    extf .f32 X Cert.KernelIdeal.Facts₀.bitsLt_bf16_f32 = X := rfl

/-- The kernel's host aggregate of row-scaled features is the "scale once" aggregate over the shared columns. -/
theorem agg_bridge (a1 : EdgeList) (h : Cert.KernelIdeal.S50000x128.Idx → EReal) (w : GraphConv.Nodes.Idx → EReal) :
    Chain.aggHost (Chain.dstVec a1) (Chain.srcVec a1) (GraphConv.scaleRows h w)
      = GraphConv.aggOnce Cert.ReferenceIdeal.Facts₀.gather_S50000x128_S800000x1_S800000x128_1_0_n_n_0_1_1128_wf
          Cert.ReferenceIdeal.Facts₀.scatter_S50000x128_S800000x1_S800000x128_1_0_0_1_wf w h
          (val_main_v17 (F := Ideal) a1) (val_main_v38 (F := Ideal) a1) := by
  unfold Chain.aggHost GraphConv.aggOnce
  rw [rows_dims, put_dims, zero_operand, src_col_eq, dst_col_eq, widen_id]
  unfold Host.scatterAdd
  rw [Ideal.hostScatterAdd_def]

/-- The kernel's layer (scale once per node) over the kernel's host terms is the reference's layer (scale each
    message) over the reference's. -/
theorem layer_bridge (a1 : EdgeList) (h : Cert.KernelIdeal.S50000x128.Idx → EReal) (b : Bias) :
    GraphConv.layerOnce (Region0.colVec (Chain.degCol a1))
        (Chain.aggHost (Chain.dstVec a1) (Chain.srcVec a1) (GraphConv.scaleRows h (Region0.colVec (Chain.degCol a1)))) h
        (Region1.rowVec (Chain.biasRow b))
      = layerOf a1 h b := by
  rw [weights_eq a1, bias_eq b, agg_bridge a1 h _]
  exact GraphConv.layer_eq _ _ _ _ h b _ _ _ (weights_ok a1) (link a1)

/-! ## The whole network -/

/-- The kernel's result, in its own terms, is the reference's result. -/
theorem out_bridge (a0 : Features) (a1 : EdgeList) (a2 : Weights) (a3 : Bias) (a4 : Weights) (a5 : Bias) :
    GraphConv.relu (fun i =>
        GraphConv.layerOnce (Region0.colVec (Chain.degCol a1))
          (Chain.aggHost (Chain.dstVec a1) (Chain.srcVec a1)
            (GraphConv.scaleRows
              (GraphConv.transform
                (GraphConv.relu (GraphConv.layerOnce (Region0.colVec (Chain.degCol a1))
                  (Chain.aggHost (Chain.dstVec a1) (Chain.srcVec a1)
                    (GraphConv.scaleRows (GraphConv.transform a0 a2) (Region0.colVec (Chain.degCol a1))))
                  (GraphConv.transform a0 a2) (Region1.rowVec (Chain.biasRow a3)))) a4)
              (Region0.colVec (Chain.degCol a1))))
          (GraphConv.transform
            (GraphConv.relu (GraphConv.layerOnce (Region0.colVec (Chain.degCol a1))
              (Chain.aggHost (Chain.dstVec a1) (Chain.srcVec a1)
                (GraphConv.scaleRows (GraphConv.transform a0 a2) (Region0.colVec (Chain.degCol a1))))
              (GraphConv.transform a0 a2) (Region1.rowVec (Chain.biasRow a3)))) a4)
          (Region1.rowVec (Chain.biasRow a5)) i + a0 i)
      = GraphConv.relu (fun i => layerOf a1 (feat2 a0 a1 a2 a3 a4) a5 i + a0 i) := by
  rw [layer_bridge a1 (GraphConv.transform a0 a2) a3]
  rw [layer_bridge a1 _ a5]

/-- The kernel's result array, as its run names it, is the reference's result at the same arguments. -/
theorem kernel_eq (m : (ℓ : Loc Cert.KernelIdeal.nD Cert.KernelIdeal.τ Cert.KernelIdeal.sig) → Buf (Elt Ideal) ℓ)
    (c : Dev Cert.KernelIdeal.nD) :
    Chain.kernelOut m c
      = GraphConv.relu (fun i =>
          layerOf (m ((c.tc : Thread Cert.KernelIdeal.nD Cert.KernelIdeal.τ).loc Cert.KernelIdeal.main_arg1))
            (feat2 (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4)))
            (m ((c.tc : Thread Cert.KernelIdeal.nD Cert.KernelIdeal.τ).loc Cert.KernelIdeal.main_arg5)) i
          + m ((c.tc : Thread Cert.KernelIdeal.nD Cert.KernelIdeal.τ).loc Cert.KernelIdeal.main_arg0) i) := by
  unfold Chain.kernelOut Chain.agg2 Chain.feat2 Chain.hidden1 Chain.agg1 Chain.feat1 Chain.weight
  exact out_bridge _ _ _ _ _ _

end Cert.Bridge

end
-- ==== Proof.lean ====
/-
  Two graph-convolution layers with a residual, a kernel against its reference.

  Both programs compute, over 50000 nodes with 128 features and 800000 edges,
  `relu (conv (relu (conv x W1 b1)) W2 b2 + x)`, where `conv h W b = D (A + I) D (h W) + b`, `D` the diagonal of inverse
  square roots of the in-degrees plus one. The reference forms every edge's coefficient `d[src] * d[tgt]`, scales the
  gathered source features by it, sums onto the targets and adds the self term `h W * d * d` and the bias. The kernel
  factors the target's weight out of the sum: it scales `h W` by `d` once per node (inside the matrix-product region),
  gathers and sums those rows on the host, and multiplies the aggregate by `d` in the next region, where it also adds
  the self term and the bias (and, in the last region, the residual). Since every edge that lands on node `n` has
  target weight exactly `d n` — a nonnegative finite number — `d n * Σ (h[src] * d[src]) = Σ h[src] * (d[src] * d[n])`
  on the extended reals: the two programs end with the same array.

  The frames of the two kernel programs are the generated ones; the reference's frame is its generated run with the
  result dropped. The ideal pass rewrote nothing, so the kernel's idealization is its own text read exactly.
-/
import proofs.«171717_j25975962206483_2_alg».proof.Defs
import proofs.«171717_j25975962206483_2_alg».proof.Proof.Gen.Kernel
import proofs.«171717_j25975962206483_2_alg».proof.Proof.Gen.Kernel.Skeleton
import proofs.«171717_j25975962206483_2_alg».proof.Proof.Gen.Kernel.Launch
import proofs.«171717_j25975962206483_2_alg».proof.Proof.Gen.Kernel.Points
import proofs.«171717_j25975962206483_2_alg».proof.Proof.Gen.Kernel.Frame
import proofs.«171717_j25975962206483_2_alg».proof.Proof.Gen.KernelIdeal
import proofs.«171717_j25975962206483_2_alg».proof.Proof.Gen.KernelIdeal.Skeleton
import proofs.«171717_j25975962206483_2_alg».proof.Proof.Gen.KernelIdeal.Launch
import proofs.«171717_j25975962206483_2_alg».proof.Proof.Gen.KernelIdeal.Points
import proofs.«171717_j25975962206483_2_alg».proof.Proof.Gen.KernelIdeal.Frame
import proofs.«171717_j25975962206483_2_alg».proof.Proof.Gen.ReferenceIdeal
import proofs.«171717_j25975962206483_2_alg».proof.Proof.Gen.ReferenceIdeal.Read
import proofs.«171717_j25975962206483_2_alg».proof.Proof.Gen.Pre_finite_inputs
import proofs.«171717_j25975962206483_2_alg».proof.Proof.KernelRun
import proofs.«171717_j25975962206483_2_alg».proof.Proof.KernelChain
import proofs.«171717_j25975962206483_2_alg».proof.Proof.ReferenceValue
import proofs.«171717_j25975962206483_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at one function of the arguments: the kernel's read back through its six
    segments, the reference's from its generated run, and the two functions equal by the aggregation law. -/
theorem algebraic : Cert.algebraic_KernelIdeal_ReferenceIdeal := by
  intro m ρ m' ρ' _ hagree
  refine ⟨fun c => Cert.KernelIdeal.Chain.kernelOut m c, ?_, ?_⟩
  · exact (θ_run Cert.KernelIdeal.defs _ _).mono
      (fun r h c => ⟨(h c).1.trans (Cert.KernelIdeal.Chain.W6_result m ρ c), (h c).2⟩)
      (Cert.KernelIdeal.Whole.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v94_eq, Cert.ReferenceIdeal.RefValue.result_eq,
      (hagree c).1, (hagree c).2.1, (hagree c).2.2.1, (hagree c).2.2.2.1, (hagree c).2.2.2.2.1, (hagree c).2.2.2.2.2]
    exact (Cert.Bridge.kernel_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
